-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x768 : Shape := ⟨3, ![16, 512, 768]⟩
abbrev S16x512 : Shape := ⟨2, ![16, 512]⟩
abbrev S768x768 : Shape := ⟨2, ![768, 768]⟩
abbrev S768 : Shape := ⟨1, ![768]⟩
abbrev S_ : Shape := ⟨0, ![]⟩

class Facts : Prop where
  bcast_S_S16x512x768 : S_.BroadcastsInDim S16x512x768 (![] : Fin 0 → Fin S16x512x768.rank)
  reducesTo_S16x512x768_S_d0_1_2 : S16x512x768.ReducesTo [0, 1, 2] S_
  h_S_ : 0 < S_.numel
  bcast_S_S16x512 : S_.BroadcastsInDim S16x512 (![] : Fin 0 → Fin S16x512.rank)
  reducesTo_S16x512_S_d0_1 : S16x512.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part2 {F : FTy → Type} [FloatOps F] (main_arg7 : FVec F S768 .f32) (main_v33 : IVec S_ 1) : IVec S_ 1 :=
  let main_v34 : FVec F S768 .f32 := Host.absf main_arg7
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  main_v38

def fn_part1 {F : FTy → Type} [FloatOps F] (main_arg4 : FVec F S768x768 .f32) (main_arg5 : FVec F S768 .f32) (main_arg6 : FVec F S768x768 .f32) (main_arg7 : FVec F S768 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768x768 .f32 := Host.absf main_arg4
  let main_cst_6 : FVec F S_ .f32 := constant S_ .f32 0x7F800000#32
  let main_v20 : FVec F S768x768 .f32 := broadcastInDim S768x768 ![] bcast_S_S768x768 main_cst_6
  let main_v21 : IVec S768x768 1 := cmpf .olt main_v19 main_v20
  let main_c_7 : IVec S_ 1 := constantI S_ 1 1#1
  let main_v22 : IVec S_ 1 := (fun x v => Host.reduce IntOp.andi x v reducesTo_S768x768_S_d0_1 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  let main_v29 : FVec F S768x768 .f32 := Host.absf main_arg6
  let main_cst_10 : FVec F S_ .f32 := constant S_ .f32 0x7F800000#32
  let main_v30 : FVec F S768x768 .f32 := broadcastInDim S768x768 ![] bcast_S_S768x768 main_cst_10
  let main_v31 : IVec S768x768 1 := cmpf .olt main_v29 main_v30
  let main_c_11 : IVec S_ 1 := constantI S_ 1 1#1
  let main_v32 : IVec S_ 1 := (fun x v => Host.reduce IntOp.andi x v reducesTo_S768x768_S_d0_1 h_S_) main_v31 main_c_11
  let main_v33 : IVec S_ 1 := andi main_v28 main_v32
  fn_part2 (F := F) main_arg7 main_v33

def fn {F : FTy → Type} [FloatOps F] (main_arg0 : FVec F S16x512x768 .f32) (main_arg1 : FVec F S16x512 .f32) (main_arg2 : FVec F S768x768 .f32) (main_arg3 : FVec F S768 .f32) (main_arg4 : FVec F S768x768 .f32) (main_arg5 : FVec F S768 .f32) (main_arg6 : FVec F S768x768 .f32) (main_arg7 : FVec F S768 .f32) : IVec S_ 1 :=
  let main_v0 : FVec F S16x512x768 .f32 := Host.absf main_arg0
  let main_cst : FVec F S_ .f32 := constant S_ .f32 0x7F800000#32
  let main_v1 : FVec F S16x512x768 .f32 := broadcastInDim S16x512x768 ![] bcast_S_S16x512x768 main_cst
  let main_v2 : IVec S16x512x768 1 := cmpf .olt main_v0 main_v1
  let main_c : IVec S_ 1 := constantI S_ 1 1#1
  let main_v3 : IVec S_ 1 := (fun x v => Host.reduce IntOp.andi x v reducesTo_S16x512x768_S_d0_1_2 h_S_) main_v2 main_c
  let main_v4 : FVec F S16x512 .f32 := Host.absf main_arg1
  let main_cst_0 : FVec F S_ .f32 := constant S_ .f32 0x7F800000#32
  let main_v5 : FVec F S16x512 .f32 := broadcastInDim S16x512 ![] bcast_S_S16x512 main_cst_0
  let main_v6 : IVec S16x512 1 := cmpf .olt main_v4 main_v5
  let main_c_1 : IVec S_ 1 := constantI S_ 1 1#1
  let main_v7 : IVec S_ 1 := (fun x v => Host.reduce IntOp.andi x v reducesTo_S16x512_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg4 main_arg5 main_arg6 main_arg7 main_v13 main_v16
-- ==== Kernel.lean ====
abbrev S16x512x768 : Shape := ⟨3, ![16, 512, 768]⟩
abbrev S16x512 : Shape := ⟨2, ![16, 512]⟩
abbrev S768x768 : Shape := ⟨2, ![768, 768]⟩
abbrev S768 : Shape := ⟨1, ![768]⟩
abbrev S768x2304 : Shape := ⟨2, ![768, 2304]⟩
abbrev S2304 : Shape := ⟨1, ![2304]⟩
abbrev S1x2304 : Shape := ⟨2, ![1, 2304]⟩
abbrev S16x1x512 : Shape := ⟨3, ![16, 1, 512]⟩
abbrev S1x512x768 : Shape := ⟨3, ![1, 512, 768]⟩
abbrev S1x1x512 : Shape := ⟨3, ![1, 1, 512]⟩
abbrev S512x768 : Shape := ⟨2, ![512, 768]⟩
abbrev S512x2304 : Shape := ⟨2, ![512, 2304]⟩
abbrev S512x12x64 : Shape := ⟨3, ![512, 12, 64]⟩
abbrev S12x512x64 : Shape := ⟨3, ![12, 512, 64]⟩
abbrev S1x512 : Shape := ⟨2, ![1, 512]⟩
abbrev S1x512x64 : Shape := ⟨3, ![1, 512, 64]⟩
abbrev S512x64 : Shape := ⟨2, ![512, 64]⟩
abbrev S64x512 : Shape := ⟨2, ![64, 512]⟩
abbrev S512x512 : Shape := ⟨2, ![512, 512]⟩
abbrev S512 : Shape := ⟨1, ![512]⟩
abbrev S512x1 : Shape := ⟨2, ![512, 1]⟩

abbrev nBuf : Space → Nat
  | .hbm => 14
  | .vmem => 8
  | .smem => 0
  | _ => 0

abbrev bufTy : (tb : Table) → Fin (tcTables nBuf tb) → BufTy
  | .hbm, ⟨0, _⟩ => ⟨S16x512x768, .f32⟩
  | .hbm, ⟨1, _⟩ => ⟨S16x512, .f32⟩
  | .hbm, ⟨2, _⟩ => ⟨S768x768, .f32⟩
  | .hbm, ⟨3, _⟩ => ⟨S768, .f32⟩
  | .hbm, ⟨4, _⟩ => ⟨S768x768, .f32⟩
  | .hbm, ⟨5, _⟩ => ⟨S768, .f32⟩
  | .hbm, ⟨6, _⟩ => ⟨S768x768, .f32⟩
  | .hbm, ⟨7, _⟩ => ⟨S768, .f32⟩
  | .hbm, ⟨8, _⟩ => ⟨S768x2304, .f32⟩
  | .hbm, ⟨9, _⟩ => ⟨S768x2304, .bf16⟩
  | .hbm, ⟨10, _⟩ => ⟨S2304, .f32⟩
  | .hbm, ⟨11, _⟩ => ⟨S1x2304, .f32⟩
  | .hbm, ⟨12, _⟩ => ⟨S16x1x512, .f32⟩
  | .hbm, ⟨13, _⟩ => ⟨S16x512x768, .f32⟩
  | .local _ .vmem, ⟨0, _⟩ => ⟨S1x512x768, .f32⟩
  | .local _ .vmem, ⟨1, _⟩ => ⟨S1x512x768, .f32⟩
  | .local _ .vmem, ⟨2, _⟩ => ⟨S768x2304, .bf16⟩
  | .local _ .vmem, ⟨3, _⟩ => ⟨S1x2304, .f32⟩
  | .local _ .vmem, ⟨4, _⟩ => ⟨S1x1x512, .f32⟩
  | .local _ .vmem, ⟨5, _⟩ => ⟨S1x1x512, .f32⟩
  | .local _ .vmem, ⟨6, _⟩ => ⟨S1x512x768, .f32⟩
  | .local _ .vmem, ⟨7, _⟩ => ⟨S1x512x768, .f32⟩
  | _, _ => ⟨S16x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  concatenates_S768x768_S768x768_S768x768_S768x2304_d1 : Shape.Concatenates [S768x768, S768x768, S768x768] S768x2304 1
  bitsLt_bf16_f32 : FTy.bits .bf16 < FTy.bits .f32
  concatenates_S768_S768_S768_S2304_d0 : Shape.Concatenates [S768, S768, S768] S2304 0
  shapeCasts_S2304_S1x2304 : S2304.ShapeCasts S1x2304
  shapeCasts_S16x512_S16x1x512 : S16x512.ShapeCasts S16x1x512
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  inb_S768x2304_S768x2304_0_0 : ∀ a, (![0, 0] : Fin 2 → Nat) a + S768x2304.size a ≤ S768x2304.size a
  h_S768x2304 : 0 < S768x2304.numel
  shapeCasts_S768x2304_S768x2304 : S768x2304.ShapeCasts S768x2304
  inb_S1x2304_S1x2304_0_0 : ∀ a, (![0, 0] : Fin 2 → Nat) a + S1x2304.size a ≤ S1x2304.size a
  h_S1x2304 : 0 < S1x2304.numel
  shapeCasts_S1x2304_S1x2304 : S1x2304.ShapeCasts S1x2304
  broadcasts_S1x2304_S512x2304 : S1x2304.Broadcasts S512x2304
  slices_S512x2304_o0_0_S512x768 : S512x2304.Slices ![0, 0] S512x768
  slices_S512x2304_o0_768_S512x768 : S512x2304.Slices ![0, 768] S512x768
  slices_S512x2304_o0_1536_S512x768 : S512x2304.Slices ![0, 1536] S512x768
  shapeCasts_S512x768_S512x12x64 : S512x768.ShapeCasts S512x12x64
  transposes_S512x12x64_p1_0_2_S12x512x64 : S512x12x64.Transposes [1, 0, 2] S12x512x64
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  slices_S12x512x64_o0_0_0_S1x512x64 : S12x512x64.Slices ![0, 0, 0] S1x512x64
  shapeCasts_S1x512x64_S512x64 : S1x512x64.ShapeCasts S512x64
  transposes_S512x64_p1_0_S64x512 : S512x64.Transposes [1, 0] S64x512
  broadcasts_S1x512_S512x512 : S1x512.Broadcasts S512x512
  reduces_S512x512_S512 : S512x512.Reduces [1] S512
  shapeCasts_S512_S512x1 : S512.ShapeCasts S512x1
  broadcasts_S512x1_S512x512 : S512x1.Broadcasts S512x512
  slices_S12x512x64_o1_0_0_S1x512x64 : S12x512x64.Slices ![1, 0, 0] S1x512x64
  slices_S12x512x64_o2_0_0_S1x512x64 : S12x512x64.Slices ![2, 0, 0] S1x512x64
  slices_S12x512x64_o3_0_0_S1x512x64 : S12x512x64.Slices ![3, 0, 0] S1x512x64
  slices_S12x512x64_o4_0_0_S1x512x64 : S12x512x64.Slices ![4, 0, 0] S1x512x64
  slices_S12x512x64_o5_0_0_S1x512x64 : S12x512x64.Slices ![5, 0, 0] S1x512x64
  slices_S12x512x64_o6_0_0_S1x512x64 : S12x512x64.Slices ![6, 0, 0] S1x512x64
  slices_S12x512x64_o7_0_0_S1x512x64 : S12x512x64.Slices ![7, 0, 0] S1x512x64
  slices_S12x512x64_o8_0_0_S1x512x64 : S12x512x64.Slices ![8, 0, 0] S1x512x64
  slices_S12x512x64_o9_0_0_S1x512x64 : S12x512x64.Slices ![9, 0, 0] S1x512x64
  slices_S12x512x64_o10_0_0_S1x512x64 : S12x512x64.Slices ![10, 0, 0] S1x512x64
  slices_S12x512x64_o11_0_0_S1x512x64 : S12x512x64.Slices ![11, 0, 0] S1x512x64
  concatenates_S512x64_S512x64_S512x64_S512x64_S512x64_S512x64_S512x64_S512x64_S512x64_S512x64_S512x64_S512x64_S512x768_d1 : Shape.Concatenates [S512x64, S512x64, S512x64, S512x64, S512x64, S512x64, S512x64, S512x64, S512x64, S512x64, S512x64, S512x64] S512x768 1
  shapeCasts_S512x768_S1x512x768 : S512x768.ShapeCasts S1x512x768
  dot_S512x768_S768x2304_S512x2304_1_0_0_1_n_n_wf : DotDims.WF S512x768 S768x2304 S512x2304 [1] [0] [0] [1] [] []
  dot_S512x64_S64x512_S512x512_1_0_0_1_n_n_wf : DotDims.WF S512x64 S64x512 S512x512 [1] [0] [0] [1] [] []
  dot_S512x512_S512x64_S512x64_1_0_0_1_n_n_wf : DotDims.WF S512x512 S512x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x768.size a ≤ S16x512x768.size a
  hwx0_0 : ∀ i : grid0.Coords, EltTy.bits .f32 = 32 ∨ (Rect.block (s := S16x512x768) S1x512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2304.size a ≤ S768x2304.size a
  hwx0_1 : ∀ i : grid0.Coords, EltTy.bits .bf16 = 32 ∨ (Rect.block (s := S768x2304) S768x2304.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2304.size a ≤ S1x2304.size a
  hwx0_2 : ∀ i : grid0.Coords, EltTy.bits .f32 = 32 ∨ (Rect.block (s := S1x2304) S1x2304.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S16x1x512.size a
  hwx0_3 : ∀ i : grid0.Coords, EltTy.bits .f32 = 32 ∨ (Rect.block (s := S16x1x512) S1x1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x768.size a ≤ S16x512x768.size a
  hwx0_4 : ∀ i : grid0.Coords, EltTy.bits .f32 = 32 ∨ (Rect.block (s := S16x512x768) S1x512x768.size (cc0_transform_4 i) (hinb0_4 i)).WholeWords (EltTy.packing .f32)

variable [Facts₀]

def dot_S512x768_S768x2304_S512x2304_1_0_0_1_n_n : DotDims S512x768 S768x2304 S512x2304 where
  lhsContracting := [1]
  rhsContracting := [0]
  lhsNonContracting := [0]
  rhsNonContracting := [1]
  lhsBatch := []
  rhsBatch := []
  wf := dot_S512x768_S768x2304_S512x2304_1_0_0_1_n_n_wf
def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf

abbrev win0_0 : Pipeline.Window sig grid0 :=
  Pipeline.Window.ofSpec (Memref.whole main_arg0) S1x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2304.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x512x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x512x768 : Shape := ⟨3, ![16, 512, 768]⟩
abbrev S16x512 : Shape := ⟨2, ![16, 512]⟩
abbrev S768x768 : Shape := ⟨2, ![768, 768]⟩
abbrev S768 : Shape := ⟨1, ![768]⟩
abbrev S1x1x768 : Shape := ⟨3, ![1, 1, 768]⟩
abbrev S16x512x12x64 : Shape := ⟨4, ![16, 512, 12, 64]⟩
abbrev S16x12x512x64 : Shape := ⟨4, ![16, 12, 512, 64]⟩
abbrev S16x12x512x512 : Shape := ⟨4, ![16, 12, 512, 512]⟩
abbrev S_ : Shape := ⟨0, ![]⟩
abbrev S16x1x1x512 : Shape := ⟨4, ![16, 1, 1, 512]⟩
abbrev S16x12x512 : Shape := ⟨3, ![16, 12, 512]⟩
abbrev S16x12x512x1 : Shape := ⟨4, ![16, 12, 512, 1]⟩

abbrev nBuf : Space → Nat
  | .hbm => 54
  | .vmem => 0
  | .smem => 0
  | _ => 0

abbrev bufTy : (tb : Table) → Fin (tcTables nBuf tb) → BufTy
  | .hbm, ⟨0, _⟩ => ⟨S16x512x768, .f32⟩
  | .hbm, ⟨1, _⟩ => ⟨S16x512, .f32⟩
  | .hbm, ⟨2, _⟩ => ⟨S768x768, .f32⟩
  | .hbm, ⟨3, _⟩ => ⟨S768, .f32⟩
  | .hbm, ⟨4, _⟩ => ⟨S768x768, .f32⟩
  | .hbm, ⟨5, _⟩ => ⟨S768, .f32⟩
  | .hbm, ⟨6, _⟩ => ⟨S768x768, .f32⟩
  | .hbm, ⟨7, _⟩ => ⟨S768, .f32⟩
  | .hbm, ⟨8, _⟩ => ⟨S16x512x768, .f32⟩
  | .hbm, ⟨9, _⟩ => ⟨S1x1x768, .f32⟩
  | .hbm, ⟨10, _⟩ => ⟨S16x512x768, .f32⟩
  | .hbm, ⟨11, _⟩ => ⟨S16x512x768, .f32⟩
  | .hbm, ⟨12, _⟩ => ⟨S16x512x12x64, .f32⟩
  | .hbm, ⟨13, _⟩ => ⟨S16x12x512x64, .f32⟩
  | .hbm, ⟨14, _⟩ => ⟨S16x512x768, .f32⟩
  | .hbm, ⟨15, _⟩ => ⟨S1x1x768, .f32⟩
  | .hbm, ⟨16, _⟩ => ⟨S16x512x768, .f32⟩
  | .hbm, ⟨17, _⟩ => ⟨S16x512x768, .f32⟩
  | .hbm, ⟨18, _⟩ => ⟨S16x512x12x64, .f32⟩
  | .hbm, ⟨19, _⟩ => ⟨S16x12x512x64, .f32⟩
  | .hbm, ⟨20, _⟩ => ⟨S16x512x768, .f32⟩
  | .hbm, ⟨21, _⟩ => ⟨S1x1x768, .f32⟩
  | .hbm, ⟨22, _⟩ => ⟨S16x512x768, .f32⟩
  | .hbm, ⟨23, _⟩ => ⟨S16x512x768, .f32⟩
  | .hbm, ⟨24, _⟩ => ⟨S16x512x12x64, .f32⟩
  | .hbm, ⟨25, _⟩ => ⟨S16x12x512x64, .f32⟩
  | .hbm, ⟨26, _⟩ => ⟨S16x12x512x512, .f32⟩
  | .hbm, ⟨27, _⟩ => ⟨S_, .f32⟩
  | .hbm, ⟨28, _⟩ => ⟨S_, .f32⟩
  | .hbm, ⟨29, _⟩ => ⟨S16x12x512x512, .f32⟩
  | .hbm, ⟨30, _⟩ => ⟨S16x12x512x512, .f32⟩
  | .hbm, ⟨31, _⟩ => ⟨S_, .f32⟩
  | .hbm, ⟨32, _⟩ => ⟨S16x512, .f32⟩
  | .hbm, ⟨33, _⟩ => ⟨S16x512, .f32⟩
  | .hbm, ⟨34, _⟩ => ⟨S16x1x1x512, .f32⟩
  | .hbm, ⟨35, _⟩ => ⟨S16x12x512x512, .f32⟩
  | .hbm, ⟨36, _⟩ => ⟨S16x12x512x512, .f32⟩
  | .hbm, ⟨37, _⟩ => ⟨S_, .f32⟩
  | .hbm, ⟨38, _⟩ => ⟨S16x12x512, .f32⟩
  | .hbm, ⟨39, _⟩ => ⟨S_, .f32⟩
  | .hbm, ⟨40, _⟩ => ⟨S16x12x512, .f32⟩
  | .hbm, ⟨41, _⟩ => ⟨S16x12x512, .f32⟩
  | .hbm, ⟨42, _⟩ => ⟨S16x12x512x1, .f32⟩
  | .hbm, ⟨43, _⟩ => ⟨S16x12x512x512, .f32⟩
  | .hbm, ⟨44, _⟩ => ⟨S16x12x512x512, .f32⟩
  | .hbm, ⟨45, _⟩ => ⟨S16x12x512x512, .f32⟩
  | .hbm, ⟨46, _⟩ => ⟨S_, .f32⟩
  | .hbm, ⟨47, _⟩ => ⟨S16x12x512, .f32⟩
  | .hbm, ⟨48, _⟩ => ⟨S16x12x512x1, .f32⟩
  | .hbm, ⟨49, _⟩ => ⟨S16x12x512x512, .f32⟩
  | .hbm, ⟨50, _⟩ => ⟨S16x12x512x512, .f32⟩
  | .hbm, ⟨51, _⟩ => ⟨S16x12x512x64, .f32⟩
  | .hbm, ⟨52, _⟩ => ⟨S16x512x12x64, .f32⟩
  | .hbm, ⟨53, _⟩ => ⟨S16x512x768, .f32⟩
  | _, _ => ⟨S16x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S16x512x768_0_1_2 : S1x1x768.BroadcastsInDim S16x512x768 (![0, 1, 2] : Fin 3 → Fin S16x512x768.rank)
  shapeCasts_S16x512x768_S16x512x12x64 : S16x512x768.ShapeCasts S16x512x12x64
  transposes_S16x512x12x64_S16x12x512x64_0_2_1_3 : S16x512x12x64.Transposes [0, 2, 1, 3] S16x12x512x64
  bcast_S_S16x12x512x512 : S_.BroadcastsInDim S16x12x512x512 (![] : Fin 0 → Fin S16x12x512x512.rank)
  bcast_S_S16x512 : S_.BroadcastsInDim S16x512 (![] : Fin 0 → Fin S16x512.rank)
  bcast_S16x512_S16x1x1x512_0_3 : S16x512.BroadcastsInDim S16x1x1x512 (![0, 3] : Fin 2 → Fin S16x1x1x512.rank)
  bcast_S16x1x1x512_S16x12x512x512_0_1_2_3 : S16x1x1x512.BroadcastsInDim S16x12x512x512 (![0, 1, 2, 3] : Fin 4 → Fin S16x12x512x512.rank)
  reducesTo_S16x12x512x512_S16x12x512_d3 : S16x12x512x512.ReducesTo [3] S16x12x512
  h_S_ : 0 < S_.numel
  bcast_S_S16x12x512 : S_.BroadcastsInDim S16x12x512 (![] : Fin 0 → Fin S16x12x512.rank)
  bcast_S16x12x512_S16x12x512x1_0_1_2 : S16x12x512.BroadcastsInDim S16x12x512x1 (![0, 1, 2] : Fin 3 → Fin S16x12x512x1.rank)
  bcast_S16x12x512x1_S16x12x512x512_0_1_2_3 : S16x12x512x1.BroadcastsInDim S16x12x512x512 (![0, 1, 2, 3] : Fin 4 → Fin S16x12x512x512.rank)
  transposes_S16x12x512x64_S16x512x12x64_0_2_1_3 : S16x12x512x64.Transposes [0, 2, 1, 3] S16x512x12x64
  shapeCasts_S16x512x12x64_S16x512x768 : S16x512x12x64.ShapeCasts S16x512x768
  dot_S16x512x768_S768x768_S16x512x768_2_0_01_1_n_n_wf : DotDims.WF S16x512x768 S768x768 S16x512x768 [2] [0] [0, 1] [1] [] []
  dot_S16x12x512x64_S16x12x512x64_S16x12x512x512_3_3_2_2_01_01_wf : DotDims.WF S16x12x512x64 S16x12x512x64 S16x12x512x512 [3] [3] [2] [2] [0, 1] [0, 1]
  dot_S16x12x512x512_S16x12x512x64_S16x12x512x64_3_2_2_3_01_01_wf : DotDims.WF S16x12x512x512 S16x12x512x64 S16x12x512x64 [3] [2] [2] [3] [0, 1] [0, 1]

variable [Facts₀]

def dot_S16x512x768_S768x768_S16x512x768_2_0_01_1_n_n : DotDims S16x512x768 S768x768 S16x512x768 where
  lhsContracting := [2]
  rhsContracting := [0]
  lhsNonContracting := [0, 1]
  rhsNonContracting := [1]
  lhsBatch := []
  rhsBatch := []
  wf := dot_S16x512x768_S768x768_S16x512x768_2_0_01_1_n_n_wf
def dot_S16x12x512x64_S16x12x512x64_S16x12x512x512_3_3_2_2_01_01 : DotDims S16x12x512x64 S16x12x512x64 S16x12x512x512 where
  lhsContracting := [3]
  rhsContracting := [3]
  lhsNonContracting := [2]
  rhsNonContracting := [2]
  lhsBatch := [0, 1]
  rhsBatch := [0, 1]
  wf := dot_S16x12x512x64_S16x12x512x64_S16x12x512x512_3_3_2_2_01_01_wf
def dot_S16x12x512x512_S16x12x512x64_S16x12x512x64_3_2_2_3_01_01 : DotDims S16x12x512x512 S16x12x512x64 S16x12x512x64 where
  lhsContracting := [3]
  rhsContracting := [2]
  lhsNonContracting := [2]
  rhsNonContracting := [3]
  lhsBatch := [0, 1]
  rhsBatch := [0, 1]
  wf := dot_S16x12x512x512_S16x12x512x64_S16x12x512x64_3_2_2_3_01_01_wf

class Facts : Prop extends Facts₀ where

variable [Facts]
-- ==== Proof.FrameKernel.lean ====
/-
  The frame of `Kernel`: its @main — five host operations (the three weight matrices laid side by side into one
  768 × 2304 matrix and rounded, the three bias rows joined into one row of 2304, the mask given a unit middle
  axis) and then one launch over a grid of 16 points, one batch entry per point — runs to the end, faults nowhere
  and leaves the eight argument arrays as it found them.

  At each point the body reads four whole blocks (the batch entry's 512 × 768 rows, the joined weights, the joined
  bias, the entry's mask row), computes, and overwrites its whole 512 × 768 output block once. So after the body
  the output's staging buffer holds ONE function of the four input blocks (`stored`), and each input's buffer
  still holds its block. That is the proof data; the body's triple runs the body against it, and the launch
  theorem carries it over the grid.
-/
import proofs.«181755_j32770600469142_2_alg».proof.Proof.Gen.Kernel.Launch
import proofs.«181755_j32770600469142_2_alg».proof.Proof.Gen.Kernel.Skeleton
import proofs.«181755_j32770600469142_2_alg».proof.Proof.Gen.Kernel.Points
import Idealize.ShloMosaic.Lib.Pipeline.FrameBody
import Idealize.ShloMosaic.Lib.StableHlo.Run
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the launch finds them -/

/-- What core `c`'s buffers hold when the launch begins: the initial memory after the five host operations. -/
abbrev entry (c : Dev nD) (b : Ref sig .tc) : Buf (Elt F) ((c : Thread nD τ).loc b) :=
  StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- @main is the host operations followed by the launch. -/
theorem main_is (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- Each host operation writes only its own result, so an argument array is untouched when the launch begins. -/
theorem entry_arg (b : Ref sig .tc)
    (hb : b ≠ main_v0 ∧ b ≠ main_v1 ∧ b ≠ main_v2 ∧ b ≠ main_v3 ∧ b ≠ main_v4) (c : Dev nD) :
    entry m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.reshape_writes,
      Finset.mem_singleton]
    exact ⟨StableHlo.devRef_ne_of_ne hb.1, StableHlo.devRef_ne_of_ne hb.2.1, StableHlo.devRef_ne_of_ne hb.2.2.1,
      StableHlo.devRef_ne_of_ne hb.2.2.2.1, StableHlo.devRef_ne_of_ne hb.2.2.2.2⟩))

theorem entry_arg0 (c : Dev nD) : entry m c main_arg0 = m ((c : Thread nD τ).loc main_arg0) := entry_arg m _ (by decide) c
theorem entry_arg1 (c : Dev nD) : entry m c main_arg1 = m ((c : Thread nD τ).loc main_arg1) := entry_arg m _ (by decide) c
theorem entry_arg2 (c : Dev nD) : entry m c main_arg2 = m ((c : Thread nD τ).loc main_arg2) := entry_arg m _ (by decide) c
theorem entry_arg3 (c : Dev nD) : entry m c main_arg3 = m ((c : Thread nD τ).loc main_arg3) := entry_arg m _ (by decide) c
theorem entry_arg4 (c : Dev nD) : entry m c main_arg4 = m ((c : Thread nD τ).loc main_arg4) := entry_arg m _ (by decide) c
theorem entry_arg5 (c : Dev nD) : entry m c main_arg5 = m ((c : Thread nD τ).loc main_arg5) := entry_arg m _ (by decide) c
theorem entry_arg6 (c : Dev nD) : entry m c main_arg6 = m ((c : Thread nD τ).loc main_arg6) := entry_arg m _ (by decide) c
theorem entry_arg7 (c : Dev nD) : entry m c main_arg7 = m ((c : Thread nD τ).loc main_arg7) := entry_arg m _ (by decide) c

/-! ## The blocks -/

/-- Operand `w`'s block at grid point `t`, cut out of its array as the launch finds it. -/
def blockAt (c : Dev nD) (w : Fin cfg0.W) (t : Fin cfg0.N) :
    ((cfg0.win w).xblock (cfg0.grid.coords t)).Idx → Elt F (cfg0.win w).elt :=
  ((cfg0.win w).blk t).view.read (Elt F) (entry m c (Pipeline.arrRef spec0 w))

/-- An input operand's staging buffer holds its block at every point — freshly fetched, or (the weights and the
    bias, whose block never moves) still there from the first point — provided the body leaves it in place. -/
theorem held_of_0 {c : Dev nD} (dat : Dat τ (Elt F) Unit ℕ (UR sig nD τ) ℕ cfg0 c)
    (hA : dat.A 0 = entry m c (Pipeline.arrRef spec0 0))
    (hkeep : ∀ t, dat.after 0 t = blockAt m c 0 t) (t : Fin cfg0.N) (d) : dat.before 0 t d = blockAt m c 0 t :=
  (dat.before_in_eq_fetched 0 rfl (fun _ => rfl) (fun _ _ _ => rfl)
    (fun t => by rw [hkeep]; unfold Dat.blockOf blockAt; rw [hA]; try rfl) t d).trans
    (by unfold Dat.fetched Dat.blockOf blockAt; rw [hA]; try rfl)
theorem held_of_1 {c : Dev nD} (dat : Dat τ (Elt F) Unit ℕ (UR sig nD τ) ℕ cfg0 c)
    (hA : dat.A 1 = entry m c (Pipeline.arrRef spec0 1))
    (hkeep : ∀ t, dat.after 1 t = blockAt m c 1 t) (t : Fin cfg0.N) (d) : dat.before 1 t d = blockAt m c 1 t :=
  (dat.before_in_eq_fetched 1 rfl (fun _ => rfl) (fun _ _ _ => rfl)
    (fun t => by rw [hkeep]; unfold Dat.blockOf blockAt; rw [hA]; try rfl) t d).trans
    (by unfold Dat.fetched Dat.blockOf blockAt; rw [hA]; try rfl)
theorem held_of_2 {c : Dev nD} (dat : Dat τ (Elt F) Unit ℕ (UR sig nD τ) ℕ cfg0 c)
    (hA : dat.A 2 = entry m c (Pipeline.arrRef spec0 2))
    (hkeep : ∀ t, dat.after 2 t = blockAt m c 2 t) (t : Fin cfg0.N) (d) : dat.before 2 t d = blockAt m c 2 t :=
  (dat.before_in_eq_fetched 2 rfl (fun _ => rfl) (fun _ _ _ => rfl)
    (fun t => by rw [hkeep]; unfold Dat.blockOf blockAt; rw [hA]; try rfl) t d).trans
    (by unfold Dat.fetched Dat.blockOf blockAt; rw [hA]; try rfl)
theorem held_of_3 {c : Dev nD} (dat : Dat τ (Elt F) Unit ℕ (UR sig nD τ) ℕ cfg0 c)
    (hA : dat.A 3 = entry m c (Pipeline.arrRef spec0 3))
    (hkeep : ∀ t, dat.after 3 t = blockAt m c 3 t) (t : Fin cfg0.N) (d) : dat.before 3 t d = blockAt m c 3 t :=
  (dat.before_in_eq_fetched 3 rfl (fun _ => rfl) (fun _ _ _ => rfl)
    (fun t => by rw [hkeep]; unfold Dat.blockOf blockAt; rw [hA]; try rfl) t d).trans
    (by unfold Dat.fetched Dat.blockOf blockAt; rw [hA]; try rfl)

/-! ## What the body writes -/

abbrev rX : Rect S1x512x768 := Rect.unit (s := S1x512x768) ![0, 0, 0] S1x512x768.size inb_S1x512x768_S1x512x768_0_0_0
abbrev rW : Rect S768x2304 := Rect.unit (s := S768x2304) ![0, 0] S768x2304.size inb_S768x2304_S768x2304_0_0
abbrev rB : Rect S1x2304 := Rect.unit (s := S1x2304) ![0, 0] S1x2304.size inb_S1x2304_S1x2304_0_0
abbrev rM : Rect S1x1x512 := Rect.unit (s := S1x1x512) ![0, 0, 0] S1x1x512.size inb_S1x1x512_S1x1x512_0_0_0

/-- The body's one stored value as a function of its four loaded blocks: the three head-major projections
    `q`, `k`, `v` and the mask's additive row, then the twelve heads' attention outputs laid side by side.
    (The pieces are the skeleton's payloads, wired as the body's parts hand them on.) -/
def result (x : Vec F S1x512x768 .f32) (w : Vec F S768x2304 .bf16) (b : Vec F S1x2304 .f32) (k : Vec F S1x1x512 .f32) :
    Vec F S1x512x768 .f32 :=
  let q := k0_pay3 x w b
  let kk := k0_pay4 x w b
  let v := k0_pay5 x w b
  let a := k0_pay6 k
  let z : FVec F S512x64 .f32 := constant S512x64 .f32 0x00000000#32
  k0_pay1 (k0_pay10 (k0_pay7 x w b) (k0_pay8 x w b k) (k0_pay9 x w b k)) (k0_pay11 q kk v a)
    (k0_pay14 (k0_pay12 v) (k0_pay13 q kk a) z) (k0_pay15 q kk v a) (k0_pay16 q kk v a)
    (k0_pay19 v a (k0_pay17 q) (k0_pay18 kk)) (k0_pay20 q kk v a)
    (k0_pay24 a (k0_pay21 q) (k0_pay22 v) (k0_pay23 kk)) (k0_pay25 q kk v a)
    (k0_pay29 a (k0_pay26 v) (k0_pay27 q kk) (k0_pay28 (F := F))) (k0_pay30 q kk v a) (k0_pay31 v) (k0_pay32 q kk a)

/-- The output's staging buffer after the body: its one store, of the whole block. -/
def stored (x : Vec F S1x512x768 .f32) (w : Vec F S768x2304 .bf16) (b : Vec F S1x2304 .f32) (k : Vec F S1x1x512 .f32) :
    Vec F S1x512x768 .f32 :=
  View.canon [⟨rX, result (View.ld x rX) (View.ld w rW) (View.ld b rB) (View.ld k rM)⟩]

/-- The one store covers the buffer. -/
theorem stored_covers (p : Vec F S1x512x768 .f32) (y : S1x512x768.Idx) :
    ∃ pc ∈ ([⟨rX, p⟩] : List (View.Piece (Elt F) S1x512x768 .f32)), y ∈ pc.1.set :=
  View.cover_of_tiled [⟨rX, p⟩] S1x512x768.size (by rfl) y

/-! ## The body's triple -/

set_option maxHeartbeats 4000000 in
/-- The body, on whole staging buffers holding `x`, `w`, `b`, `k` and an output buffer holding anything, runs
    to the end leaving the inputs as they were and the output at `stored x w b k`. -/
theorem body_triple (c : Dev nD) (E : Set ℕ) (i : grid0.Coords)
    (a1 : Memref sig .tc .vmem S1x512x768 .f32) (h1 : a1.IsWhole) (a2 : Memref sig .tc .vmem S768x2304 .bf16) (h2 : a2.IsWhole)
    (a3 : Memref sig .tc .vmem S1x2304 .f32) (h3 : a3.IsWhole) (a4 : Memref sig .tc .vmem S1x1x512 .f32) (h4 : a4.IsWhole)
    (a5 : Memref sig .tc .vmem S1x512x768 .f32) (h5 : a5.IsWhole)
    (x : Vec F S1x512x768 .f32) (w : Vec F S768x2304 .bf16) (b : Vec F S1x2304 .f32) (k : Vec F S1x1x512 .f32)
    (K : PUnit → sProp 𝕄) :
    iprop(owns (c : Thread nD τ) a1 fullShare x ∗ owns (c : Thread nD τ) a2 fullShare w ∗ owns (c : Thread nD τ) a3 fullShare b
        ∗ owns (c : Thread nD τ) a4 fullShare k ∗ (∃ d, owns (c : Thread nD τ) a5 fullShare d)
        ∗ (iprop(owns (c : Thread nD τ) a1 fullShare x ∗ owns (c : Thread nD τ) a2 fullShare w ∗ owns (c : Thread nD τ) a3 fullShare b
            ∗ owns (c : Thread nD τ) a4 fullShare k ∗ owns (c : Thread nD τ) a5 fullShare (stored x w b k)) -∗ K ⟨⟩))
      ⊢ wp frame (wpE (defs₀ (F := F)) Variants.none c none) E (cc0__fused_kernel i a1 h1 a2 h2 a3 h3 a4 h4 a5 h5) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (stored_covers _)

/-! ## The proof data -/

/-- On core `c`: the arrays as the launch finds them; after the body at point `t` each input's buffer at its
    block and the output's at `stored` of the four blocks; the kernel keeps nothing of its own. -/
def pdata (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => stored (blockAt m c 0 t) (blockAt m c 1 t) (blockAt m c 2 t) (blockAt m c 3 t)
  Φ _ := Pipeline.ΦA spec0 c
  q _ := fullShare
  owed _ := 0

theorem pdata_A (c : Dev nD) (w : Fin cfg0.W) : (pdata m 0 c).A w = entry m c (Pipeline.arrRef spec0 w) := by
  dsimp only [pdata]

theorem after_0 (c : Dev nD) (t : Fin cfg0.N) : (pdata m 0 c).after 0 t = blockAt m c 0 t := by dsimp only [pdata]
theorem after_1 (c : Dev nD) (t : Fin cfg0.N) : (pdata m 0 c).after 1 t = blockAt m c 1 t := by dsimp only [pdata]
theorem after_2 (c : Dev nD) (t : Fin cfg0.N) : (pdata m 0 c).after 2 t = blockAt m c 2 t := by dsimp only [pdata]
theorem after_3 (c : Dev nD) (t : Fin cfg0.N) : (pdata m 0 c).after 3 t = blockAt m c 3 t := by dsimp only [pdata]
theorem after_4 (c : Dev nD) (t : Fin cfg0.N) : (pdata m 0 c).after 4 t
    = stored (blockAt m c 0 t) (blockAt m c 1 t) (blockAt m c 2 t) (blockAt m c 3 t) := by dsimp only [pdata]

theorem held_0 (c : Dev nD) (t : Fin cfg0.N) (d) : (pdata m 0 c).before 0 t d = blockAt m c 0 t :=
  held_of_0 m (pdata m 0 c) (pdata_A m c 0) (after_0 m c) t d
theorem held_1 (c : Dev nD) (t : Fin cfg0.N) (d) : (pdata m 0 c).before 1 t d = blockAt m c 1 t :=
  held_of_1 m (pdata m 0 c) (pdata_A m c 1) (after_1 m c) t d
theorem held_2 (c : Dev nD) (t : Fin cfg0.N) (d) : (pdata m 0 c).before 2 t d = blockAt m c 2 t :=
  held_of_2 m (pdata m 0 c) (pdata_A m c 2) (after_2 m c) t d
theorem held_3 (c : Dev nD) (t : Fin cfg0.N) (d) : (pdata m 0 c).before 3 t d = blockAt m c 3 t :=
  held_of_3 m (pdata m 0 c) (pdata_A m c 3) (after_3 m c) t d

/-! ## The body at a grid point -/

def pointPre (c : Dev nD) (t : Fin cfg0.N) : sProp 𝕄 :=
  iprop((pdata m 0 c).Φ t.castSucc ∗ (pdata m 0 c).owesAt () t.castSucc
    ∗ (∃ d, owns (c : Thread nD τ) (st0_0 t) fullShare ((pdata m 0 c).before 0 t d))
    ∗ (∃ d, owns (c : Thread nD τ) (st0_1 t) fullShare ((pdata m 0 c).before 1 t d))
    ∗ (∃ d, owns (c : Thread nD τ) (st0_2 t) fullShare ((pdata m 0 c).before 2 t d))
    ∗ (∃ d, owns (c : Thread nD τ) (st0_3 t) fullShare ((pdata m 0 c).before 3 t d))
    ∗ (∃ d, owns (c : Thread nD τ) (st0_4 t) fullShare ((pdata m 0 c).before 4 t d)))

def pointPost (c : Dev nD) (t : Fin cfg0.N) : sProp 𝕄 :=
  iprop((pdata m 0 c).Φ t.succ ∗ (pdata m 0 c).owesAt () t.succ
    ∗ owns (c : Thread nD τ) (st0_0 t) fullShare ((pdata m 0 c).after 0 t)
    ∗ owns (c : Thread nD τ) (st0_1 t) fullShare ((pdata m 0 c).after 1 t)
    ∗ owns (c : Thread nD τ) (st0_2 t) fullShare ((pdata m 0 c).after 2 t)
    ∗ owns (c : Thread nD τ) (st0_3 t) fullShare ((pdata m 0 c).after 3 t)
    ∗ owns (c : Thread nD τ) (st0_4 t) fullShare ((pdata m 0 c).after 4 t))

/-- At any point the inputs' buffers hold their blocks, so the body's triple applies; the rest passes through. -/
theorem point_sound (c : Dev nD) (t : Fin cfg0.N) :
    pointPre m c t ⊢ wp frame (wpE (defs₀ (F := F)) Variants.none c none) Set.univ (bodyAt0 t) (fun _ => pointPost m c t) := by
  unfold pointPre pointPost bodyAt0
  simp only [held_0, held_1, held_2, held_3]
  rw [show (pdata m 0 c).Φ t.succ = (pdata m 0 c).Φ t.castSucc from rfl,
    show (pdata m 0 c).owesAt () t.succ = (pdata m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (body_triple c Set.univ (grid0.coords t) _ _ _ _ _ _ _ _ _ _
    (blockAt m c 0 t) (blockAt m c 1 t) (blockAt m c 2 t) (blockAt m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) :
    BodyObligation (pdata (F := F) m 0 c) (defs₀ (F := F)) Variants.none () Set.univ := fun t => by
  rw [bigSep_W0, bigSep_W0]
  exact point_sound m c t

/-! ## The run -/

set_option backward.isDefEq.respectTransparency.types false in
/-- Every weakly fair execution of @main terminates; at the end each operand's array is what the launch theorem
    computes from the proof data, and every other buffer is as the launch found it. -/
theorem run_main : θ_run defs (onTc (τ := τ) (main (F := F))) (s₀ m ρ) (Pipeline.FramePost cfgs (pdata m) 0 (entry m)) :=
  Pipeline.θ_run_frame cfgs (pdata m) (0 : Fin 1) launch0 defs₀ Variants.none m ρ main
    (hbody := fun c => (body_obligation m c).loose) (hshare := fun c => (pdata m 0 c).share_full fun _ => rfl)
    (howed := fun _ _ => rfl) (V := entry m) (hmain := main_is m Variants.none) (hA := pdata_A m) (hΦ := fun _ _ => rfl)

/-- The eight argument arrays end as they began: `main_arg0` is an input operand's own array (put back as it
    was found), the other seven are no operand's array at all. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).1 0).trans (((pdata m 0 c).arrAt_in 0 rfl _).trans ((pdata_A m c 0).trans (entry_arg0 m c))),
      ((h c).2 main_arg1 (Pipeline.mem_restRefs_of main_arg1 (by decide) (by decide))).trans (entry_arg1 m c),
      ((h c).2 main_arg2 (Pipeline.mem_restRefs_of main_arg2 (by decide) (by decide))).trans (entry_arg2 m c),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c)⟩)
    (run_main m ρ)

end Cert.Kernel.Fr

end
-- ==== Proof.FrameKernelIdeal.lean ====
/-
  The frame of `KernelIdeal`: its @main — five host operations (the three weight matrices laid side by side into one
  768 × 2304 matrix and rounded, the three bias rows joined into one row of 2304, the mask given a unit middle
  axis) and then one launch over a grid of 16 points, one batch entry per point — runs to the end, faults nowhere
  and leaves the eight argument arrays as it found them.

  At each point the body reads four whole blocks (the batch entry's 512 × 768 rows, the joined weights, the joined
  bias, the entry's mask row), computes, and overwrites its whole 512 × 768 output block once. So after the body
  the output's staging buffer holds ONE function of the four input blocks (`stored`), and each input's buffer
  still holds its block. That is the proof data; the body's triple runs the body against it, and the launch
  theorem carries it over the grid.
-/
import proofs.«181755_j32770600469142_2_alg».proof.Proof.Gen.KernelIdeal.Launch
import proofs.«181755_j32770600469142_2_alg».proof.Proof.Gen.KernelIdeal.Skeleton
import proofs.«181755_j32770600469142_2_alg».proof.Proof.Gen.KernelIdeal.Points
import Idealize.ShloMosaic.Lib.Pipeline.FrameBody
import Idealize.ShloMosaic.Lib.StableHlo.Run
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the launch finds them -/

/-- What core `c`'s buffers hold when the launch begins: the initial memory after the five host operations. -/
abbrev entry (c : Dev nD) (b : Ref sig .tc) : Buf (Elt F) ((c : Thread nD τ).loc b) :=
  StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- @main is the host operations followed by the launch. -/
theorem main_is (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- Each host operation writes only its own result, so an argument array is untouched when the launch begins. -/
theorem entry_arg (b : Ref sig .tc)
    (hb : b ≠ main_v0 ∧ b ≠ main_v1 ∧ b ≠ main_v2 ∧ b ≠ main_v3 ∧ b ≠ main_v4) (c : Dev nD) :
    entry m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.reshape_writes,
      Finset.mem_singleton]
    exact ⟨StableHlo.devRef_ne_of_ne hb.1, StableHlo.devRef_ne_of_ne hb.2.1, StableHlo.devRef_ne_of_ne hb.2.2.1,
      StableHlo.devRef_ne_of_ne hb.2.2.2.1, StableHlo.devRef_ne_of_ne hb.2.2.2.2⟩))

theorem entry_arg0 (c : Dev nD) : entry m c main_arg0 = m ((c : Thread nD τ).loc main_arg0) := entry_arg m _ (by decide) c
theorem entry_arg1 (c : Dev nD) : entry m c main_arg1 = m ((c : Thread nD τ).loc main_arg1) := entry_arg m _ (by decide) c
theorem entry_arg2 (c : Dev nD) : entry m c main_arg2 = m ((c : Thread nD τ).loc main_arg2) := entry_arg m _ (by decide) c
theorem entry_arg3 (c : Dev nD) : entry m c main_arg3 = m ((c : Thread nD τ).loc main_arg3) := entry_arg m _ (by decide) c
theorem entry_arg4 (c : Dev nD) : entry m c main_arg4 = m ((c : Thread nD τ).loc main_arg4) := entry_arg m _ (by decide) c
theorem entry_arg5 (c : Dev nD) : entry m c main_arg5 = m ((c : Thread nD τ).loc main_arg5) := entry_arg m _ (by decide) c
theorem entry_arg6 (c : Dev nD) : entry m c main_arg6 = m ((c : Thread nD τ).loc main_arg6) := entry_arg m _ (by decide) c
theorem entry_arg7 (c : Dev nD) : entry m c main_arg7 = m ((c : Thread nD τ).loc main_arg7) := entry_arg m _ (by decide) c

/-! ## The blocks -/

/-- Operand `w`'s block at grid point `t`, cut out of its array as the launch finds it. -/
def blockAt (c : Dev nD) (w : Fin cfg0.W) (t : Fin cfg0.N) :
    ((cfg0.win w).xblock (cfg0.grid.coords t)).Idx → Elt F (cfg0.win w).elt :=
  ((cfg0.win w).blk t).view.read (Elt F) (entry m c (Pipeline.arrRef spec0 w))

/-- An input operand's staging buffer holds its block at every point — freshly fetched, or (the weights and the
    bias, whose block never moves) still there from the first point — provided the body leaves it in place. -/
theorem held_of_0 {c : Dev nD} (dat : Dat τ (Elt F) Unit ℕ (UR sig nD τ) ℕ cfg0 c)
    (hA : dat.A 0 = entry m c (Pipeline.arrRef spec0 0))
    (hkeep : ∀ t, dat.after 0 t = blockAt m c 0 t) (t : Fin cfg0.N) (d) : dat.before 0 t d = blockAt m c 0 t :=
  (dat.before_in_eq_fetched 0 rfl (fun _ => rfl) (fun _ _ _ => rfl)
    (fun t => by rw [hkeep]; unfold Dat.blockOf blockAt; rw [hA]; try rfl) t d).trans
    (by unfold Dat.fetched Dat.blockOf blockAt; rw [hA]; try rfl)
theorem held_of_1 {c : Dev nD} (dat : Dat τ (Elt F) Unit ℕ (UR sig nD τ) ℕ cfg0 c)
    (hA : dat.A 1 = entry m c (Pipeline.arrRef spec0 1))
    (hkeep : ∀ t, dat.after 1 t = blockAt m c 1 t) (t : Fin cfg0.N) (d) : dat.before 1 t d = blockAt m c 1 t :=
  (dat.before_in_eq_fetched 1 rfl (fun _ => rfl) (fun _ _ _ => rfl)
    (fun t => by rw [hkeep]; unfold Dat.blockOf blockAt; rw [hA]; try rfl) t d).trans
    (by unfold Dat.fetched Dat.blockOf blockAt; rw [hA]; try rfl)
theorem held_of_2 {c : Dev nD} (dat : Dat τ (Elt F) Unit ℕ (UR sig nD τ) ℕ cfg0 c)
    (hA : dat.A 2 = entry m c (Pipeline.arrRef spec0 2))
    (hkeep : ∀ t, dat.after 2 t = blockAt m c 2 t) (t : Fin cfg0.N) (d) : dat.before 2 t d = blockAt m c 2 t :=
  (dat.before_in_eq_fetched 2 rfl (fun _ => rfl) (fun _ _ _ => rfl)
    (fun t => by rw [hkeep]; unfold Dat.blockOf blockAt; rw [hA]; try rfl) t d).trans
    (by unfold Dat.fetched Dat.blockOf blockAt; rw [hA]; try rfl)
theorem held_of_3 {c : Dev nD} (dat : Dat τ (Elt F) Unit ℕ (UR sig nD τ) ℕ cfg0 c)
    (hA : dat.A 3 = entry m c (Pipeline.arrRef spec0 3))
    (hkeep : ∀ t, dat.after 3 t = blockAt m c 3 t) (t : Fin cfg0.N) (d) : dat.before 3 t d = blockAt m c 3 t :=
  (dat.before_in_eq_fetched 3 rfl (fun _ => rfl) (fun _ _ _ => rfl)
    (fun t => by rw [hkeep]; unfold Dat.blockOf blockAt; rw [hA]; try rfl) t d).trans
    (by unfold Dat.fetched Dat.blockOf blockAt; rw [hA]; try rfl)

/-! ## What the body writes -/

abbrev rX : Rect S1x512x768 := Rect.unit (s := S1x512x768) ![0, 0, 0] S1x512x768.size inb_S1x512x768_S1x512x768_0_0_0
abbrev rW : Rect S768x2304 := Rect.unit (s := S768x2304) ![0, 0] S768x2304.size inb_S768x2304_S768x2304_0_0
abbrev rB : Rect S1x2304 := Rect.unit (s := S1x2304) ![0, 0] S1x2304.size inb_S1x2304_S1x2304_0_0
abbrev rM : Rect S1x1x512 := Rect.unit (s := S1x1x512) ![0, 0, 0] S1x1x512.size inb_S1x1x512_S1x1x512_0_0_0

/-- The body's one stored value as a function of its four loaded blocks: the three head-major projections
    `q`, `k`, `v` and the mask's additive row, then the twelve heads' attention outputs laid side by side.
    (The pieces are the skeleton's payloads, wired as the body's parts hand them on.) -/
def result (x : Vec F S1x512x768 .f32) (w : Vec F S768x2304 .bf16) (b : Vec F S1x2304 .f32) (k : Vec F S1x1x512 .f32) :
    Vec F S1x512x768 .f32 :=
  let q := k0_pay3 x w b
  let kk := k0_pay4 x w b
  let v := k0_pay5 x w b
  let a := k0_pay6 k
  let z : FVec F S512x64 .f32 := constant S512x64 .f32 0x00000000#32
  k0_pay1 (k0_pay10 (k0_pay7 x w b) (k0_pay8 x w b k) (k0_pay9 x w b k)) (k0_pay11 q kk v a)
    (k0_pay14 (k0_pay12 v) (k0_pay13 q kk a) z) (k0_pay15 q kk v a) (k0_pay16 q kk v a)
    (k0_pay19 v a (k0_pay17 q) (k0_pay18 kk)) (k0_pay20 q kk v a)
    (k0_pay24 a (k0_pay21 q) (k0_pay22 v) (k0_pay23 kk)) (k0_pay25 q kk v a)
    (k0_pay29 a (k0_pay26 v) (k0_pay27 q kk) (k0_pay28 (F := F))) (k0_pay30 q kk v a) (k0_pay31 v) (k0_pay32 q kk a)

/-- The output's staging buffer after the body: its one store, of the whole block. -/
def stored (x : Vec F S1x512x768 .f32) (w : Vec F S768x2304 .bf16) (b : Vec F S1x2304 .f32) (k : Vec F S1x1x512 .f32) :
    Vec F S1x512x768 .f32 :=
  View.canon [⟨rX, result (View.ld x rX) (View.ld w rW) (View.ld b rB) (View.ld k rM)⟩]

/-- The one store covers the buffer. -/
theorem stored_covers (p : Vec F S1x512x768 .f32) (y : S1x512x768.Idx) :
    ∃ pc ∈ ([⟨rX, p⟩] : List (View.Piece (Elt F) S1x512x768 .f32)), y ∈ pc.1.set :=
  View.cover_of_tiled [⟨rX, p⟩] S1x512x768.size (by rfl) y

/-! ## The body's triple -/

set_option maxHeartbeats 4000000 in
/-- The body, on whole staging buffers holding `x`, `w`, `b`, `k` and an output buffer holding anything, runs
    to the end leaving the inputs as they were and the output at `stored x w b k`. -/
theorem body_triple (c : Dev nD) (E : Set ℕ) (i : grid0.Coords)
    (a1 : Memref sig .tc .vmem S1x512x768 .f32) (h1 : a1.IsWhole) (a2 : Memref sig .tc .vmem S768x2304 .bf16) (h2 : a2.IsWhole)
    (a3 : Memref sig .tc .vmem S1x2304 .f32) (h3 : a3.IsWhole) (a4 : Memref sig .tc .vmem S1x1x512 .f32) (h4 : a4.IsWhole)
    (a5 : Memref sig .tc .vmem S1x512x768 .f32) (h5 : a5.IsWhole)
    (x : Vec F S1x512x768 .f32) (w : Vec F S768x2304 .bf16) (b : Vec F S1x2304 .f32) (k : Vec F S1x1x512 .f32)
    (K : PUnit → sProp 𝕄) :
    iprop(owns (c : Thread nD τ) a1 fullShare x ∗ owns (c : Thread nD τ) a2 fullShare w ∗ owns (c : Thread nD τ) a3 fullShare b
        ∗ owns (c : Thread nD τ) a4 fullShare k ∗ (∃ d, owns (c : Thread nD τ) a5 fullShare d)
        ∗ (iprop(owns (c : Thread nD τ) a1 fullShare x ∗ owns (c : Thread nD τ) a2 fullShare w ∗ owns (c : Thread nD τ) a3 fullShare b
            ∗ owns (c : Thread nD τ) a4 fullShare k ∗ owns (c : Thread nD τ) a5 fullShare (stored x w b k)) -∗ K ⟨⟩))
      ⊢ wp frame (wpE (defs₀ (F := F)) Variants.none c none) E (cc0__fused_kernel i a1 h1 a2 h2 a3 h3 a4 h4 a5 h5) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (stored_covers _)

/-! ## The proof data -/

/-- On core `c`: the arrays as the launch finds them; after the body at point `t` each input's buffer at its
    block and the output's at `stored` of the four blocks; the kernel keeps nothing of its own. -/
def pdata (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => stored (blockAt m c 0 t) (blockAt m c 1 t) (blockAt m c 2 t) (blockAt m c 3 t)
  Φ _ := Pipeline.ΦA spec0 c
  q _ := fullShare
  owed _ := 0

theorem pdata_A (c : Dev nD) (w : Fin cfg0.W) : (pdata m 0 c).A w = entry m c (Pipeline.arrRef spec0 w) := by
  dsimp only [pdata]

theorem after_0 (c : Dev nD) (t : Fin cfg0.N) : (pdata m 0 c).after 0 t = blockAt m c 0 t := by dsimp only [pdata]
theorem after_1 (c : Dev nD) (t : Fin cfg0.N) : (pdata m 0 c).after 1 t = blockAt m c 1 t := by dsimp only [pdata]
theorem after_2 (c : Dev nD) (t : Fin cfg0.N) : (pdata m 0 c).after 2 t = blockAt m c 2 t := by dsimp only [pdata]
theorem after_3 (c : Dev nD) (t : Fin cfg0.N) : (pdata m 0 c).after 3 t = blockAt m c 3 t := by dsimp only [pdata]
theorem after_4 (c : Dev nD) (t : Fin cfg0.N) : (pdata m 0 c).after 4 t
    = stored (blockAt m c 0 t) (blockAt m c 1 t) (blockAt m c 2 t) (blockAt m c 3 t) := by dsimp only [pdata]

theorem held_0 (c : Dev nD) (t : Fin cfg0.N) (d) : (pdata m 0 c).before 0 t d = blockAt m c 0 t :=
  held_of_0 m (pdata m 0 c) (pdata_A m c 0) (after_0 m c) t d
theorem held_1 (c : Dev nD) (t : Fin cfg0.N) (d) : (pdata m 0 c).before 1 t d = blockAt m c 1 t :=
  held_of_1 m (pdata m 0 c) (pdata_A m c 1) (after_1 m c) t d
theorem held_2 (c : Dev nD) (t : Fin cfg0.N) (d) : (pdata m 0 c).before 2 t d = blockAt m c 2 t :=
  held_of_2 m (pdata m 0 c) (pdata_A m c 2) (after_2 m c) t d
theorem held_3 (c : Dev nD) (t : Fin cfg0.N) (d) : (pdata m 0 c).before 3 t d = blockAt m c 3 t :=
  held_of_3 m (pdata m 0 c) (pdata_A m c 3) (after_3 m c) t d

/-! ## The body at a grid point -/

def pointPre (c : Dev nD) (t : Fin cfg0.N) : sProp 𝕄 :=
  iprop((pdata m 0 c).Φ t.castSucc ∗ (pdata m 0 c).owesAt () t.castSucc
    ∗ (∃ d, owns (c : Thread nD τ) (st0_0 t) fullShare ((pdata m 0 c).before 0 t d))
    ∗ (∃ d, owns (c : Thread nD τ) (st0_1 t) fullShare ((pdata m 0 c).before 1 t d))
    ∗ (∃ d, owns (c : Thread nD τ) (st0_2 t) fullShare ((pdata m 0 c).before 2 t d))
    ∗ (∃ d, owns (c : Thread nD τ) (st0_3 t) fullShare ((pdata m 0 c).before 3 t d))
    ∗ (∃ d, owns (c : Thread nD τ) (st0_4 t) fullShare ((pdata m 0 c).before 4 t d)))

def pointPost (c : Dev nD) (t : Fin cfg0.N) : sProp 𝕄 :=
  iprop((pdata m 0 c).Φ t.succ ∗ (pdata m 0 c).owesAt () t.succ
    ∗ owns (c : Thread nD τ) (st0_0 t) fullShare ((pdata m 0 c).after 0 t)
    ∗ owns (c : Thread nD τ) (st0_1 t) fullShare ((pdata m 0 c).after 1 t)
    ∗ owns (c : Thread nD τ) (st0_2 t) fullShare ((pdata m 0 c).after 2 t)
    ∗ owns (c : Thread nD τ) (st0_3 t) fullShare ((pdata m 0 c).after 3 t)
    ∗ owns (c : Thread nD τ) (st0_4 t) fullShare ((pdata m 0 c).after 4 t))

/-- At any point the inputs' buffers hold their blocks, so the body's triple applies; the rest passes through. -/
theorem point_sound (c : Dev nD) (t : Fin cfg0.N) :
    pointPre m c t ⊢ wp frame (wpE (defs₀ (F := F)) Variants.none c none) Set.univ (bodyAt0 t) (fun _ => pointPost m c t) := by
  unfold pointPre pointPost bodyAt0
  simp only [held_0, held_1, held_2, held_3]
  rw [show (pdata m 0 c).Φ t.succ = (pdata m 0 c).Φ t.castSucc from rfl,
    show (pdata m 0 c).owesAt () t.succ = (pdata m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (body_triple c Set.univ (grid0.coords t) _ _ _ _ _ _ _ _ _ _
    (blockAt m c 0 t) (blockAt m c 1 t) (blockAt m c 2 t) (blockAt m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) :
    BodyObligation (pdata (F := F) m 0 c) (defs₀ (F := F)) Variants.none () Set.univ := fun t => by
  rw [bigSep_W0, bigSep_W0]
  exact point_sound m c t

/-! ## The run -/

set_option backward.isDefEq.respectTransparency.types false in
/-- Every weakly fair execution of @main terminates; at the end each operand's array is what the launch theorem
    computes from the proof data, and every other buffer is as the launch found it. -/
theorem run_main : θ_run defs (onTc (τ := τ) (main (F := F))) (s₀ m ρ) (Pipeline.FramePost cfgs (pdata m) 0 (entry m)) :=
  Pipeline.θ_run_frame cfgs (pdata m) (0 : Fin 1) launch0 defs₀ Variants.none m ρ main
    (hbody := fun c => (body_obligation m c).loose) (hshare := fun c => (pdata m 0 c).share_full fun _ => rfl)
    (howed := fun _ _ => rfl) (V := entry m) (hmain := main_is m Variants.none) (hA := pdata_A m) (hΦ := fun _ _ => rfl)

/-- The eight argument arrays end as they began: `main_arg0` is an input operand's own array (put back as it
    was found), the other seven are no operand's array at all. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).1 0).trans (((pdata m 0 c).arrAt_in 0 rfl _).trans ((pdata_A m c 0).trans (entry_arg0 m c))),
      ((h c).2 main_arg1 (Pipeline.mem_restRefs_of main_arg1 (by decide) (by decide))).trans (entry_arg1 m c),
      ((h c).2 main_arg2 (Pipeline.mem_restRefs_of main_arg2 (by decide) (by decide))).trans (entry_arg2 m c),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c)⟩)
    (run_main m ρ)

end Cert.KernelIdeal.Fr

end
-- ==== Proof.Spec.lean ====
/-
  Multi-head self-attention over one batch entry, as plain formulas on the extended reals.

  For an entry's rows `X` (512 × 768), its mask row `M`, and the three linear maps (`W`, `b`):
    proj X W b s j   = (∑ₑ X s e · W e j) + b j
    scores … s j     = sc (∑_d q s d · k j d) + M j · (−10⁹)          (`sc` rescales the dot product)
    rowMax S s       = max over j of S s j   (from −∞)
    expo S s j       = exp (S s j − rowMax S s)
    weight S s j     = expo S s j / ∑_j' expo S s j'
    headOut S v s d  = ∑_j weight S s j · v j d
  and head `h` uses columns `64 h … 64 h + 63` of each projection; its output fills the same columns of the result.

  The two programs differ only in `sc`: one multiplies by the f32 word for 1/8, the other divides by √64.
  `scale_eq` says these are one function on every extended real.
-/
import Idealize.ShloMosaic.PureOps.Ideal
import Idealize.ShloMosaic.PureOps.Ideal.Laws
import Idealize.ShloMosaic.Lib.ValueIdx

noncomputable section

namespace Cert.Attn

open Idealize.ShloMosaic

/-- The additive mask word: the f32 pattern of −10⁹ (the same word in both programs; its value is never needed). -/
abbrev negBig : EReal := Ideal.ofBits .f32 0xCE6E6B28#32

/-- Column `64 h + d` of a 768-wide row: lane `d` of head `h`. -/
def col (h : Fin 12) (d : Fin 64) : Fin 768 := ⟨h.val * 64 + d.val, by omega⟩

/-- One entry of a linear projection. -/
def proj (X : Fin 512 → Fin 768 → EReal) (W : Fin 768 → Fin 768 → EReal) (b : Fin 768 → EReal)
    (s : Fin 512) (j : Fin 768) : EReal :=
  (∑ e : Fin 768, X s e * W e j) + b j

/-- Rescaled dot products of queries and keys, plus the mask's row. -/
def scores (sc : EReal → EReal) (q k : Fin 512 → Fin 64 → EReal) (a : Fin 512 → EReal) (s j : Fin 512) : EReal :=
  sc (∑ d : Fin 64, q s d * k j d) + a j

/-- A row's maximum, from −∞. -/
def rowMax (S : Fin 512 → Fin 512 → EReal) (s : Fin 512) : EReal :=
  (Finset.univ : Finset (Fin 512)).fold max ⊥ (S s)

def expo (S : Fin 512 → Fin 512 → EReal) (s j : Fin 512) : EReal := Ideal.exp (S s j - rowMax S s)

def weight (S : Fin 512 → Fin 512 → EReal) (s j : Fin 512) : EReal :=
  Ideal.div (expo S s j) (∑ j' : Fin 512, expo S s j')

def headOut (S : Fin 512 → Fin 512 → EReal) (v : Fin 512 → Fin 64 → EReal) (s : Fin 512) (d : Fin 64) : EReal :=
  ∑ j : Fin 512, weight S s j * v j d

/-- The result's entry at row `s`, head `h`, lane `d`. -/
def attn (sc : EReal → EReal) (X : Fin 512 → Fin 768 → EReal) (M : Fin 512 → EReal)
    (Wq : Fin 768 → Fin 768 → EReal) (bq : Fin 768 → EReal) (Wk : Fin 768 → Fin 768 → EReal) (bk : Fin 768 → EReal)
    (Wv : Fin 768 → Fin 768 → EReal) (bv : Fin 768 → EReal) (s : Fin 512) (h : Fin 12) (d : Fin 64) : EReal :=
  headOut
    (scores sc (fun s d => proj X Wq bq s (col h d)) (fun j d => proj X Wk bk j (col h d)) (fun j => M j * negBig))
    (fun j d => proj X Wv bv j (col h d)) s d

/-- The kernel's rescaling: times the f32 word of 0.125. -/
def scaleMul (x : EReal) : EReal := x * Ideal.ofBits .f32 0x3E000000#32

/-- The reference's rescaling: divided by the square root of the f32 word of 64. -/
def scaleDiv (x : EReal) : EReal := Ideal.div x (Ideal.sqrt (Ideal.ofBits .f32 0x42800000#32))

theorem ofBits_neg_inf : Ideal.ofBits .f32 0xFF800000#32 = ⊥ := by
  simp [Ideal.ofBits, Ideal.ieee]

/-- The f32 word `0x3E000000` is exactly 1/8. -/
theorem ofBits_eighth : Ideal.ofBits .f32 0x3E000000#32 = ((1 / 8 : ℝ) : EReal) := by
  simp [Ideal.ofBits, Ideal.ieee, -EReal.coe_mul]; norm_num

/-- The f32 word `0x42800000` is exactly 64. -/
theorem ofBits_64 : Ideal.ofBits .f32 0x42800000#32 = ((64 : ℝ) : EReal) := by
  simp [Ideal.ofBits, Ideal.ieee, -EReal.coe_mul]; norm_num

/-- √64 = 8, and dividing an extended real by the real 8 is multiplying it by 1/8 — at the infinities too — so the two
    rescalings are one function. -/
theorem scale_eq : scaleMul = scaleDiv := by
  funext x
  unfold scaleMul scaleDiv
  have h8 : Real.sqrt 64 = 8 := by
    rw [show (64 : ℝ) = 8 ^ 2 by norm_num]; exact Real.sqrt_sq (by norm_num)
  rw [ofBits_eighth, ofBits_64, Ideal.sqrt_coe, if_neg (by norm_num), h8, Ideal.div_coe (by norm_num : (8 : ℝ) ≠ 0)]

end Cert.Attn

end
-- ==== Proof.KernelArray.lean ====
/-
  The kernel's result array as ONE function of the eight argument arrays.

  Grid point `t` handles batch entry `t`: it reads rows `X[t]` (512 × 768), the three weight matrices laid side by
  side (`Wq | Wk | Wv`, 768 × 2304), the three bias rows joined (`bq | bk | bv`), and mask row `M[t]`, and it writes
  block `t` of the result. The sixteen blocks tile the result, so the array after the run is, index by index, the
  attention formula of Spec.lean at the entry's own rows and mask — `wholeResult`.

  Read here: the joined arrays at a column (column `j`, `768 + j`, `1536 + j` of the joined weights is column `j` of
  `Wq`, `Wk`, `Wv`; likewise the bias), each operand's block at a point as entries of its array, what a point
  writes back as a block of `wholeResult`, and the cover.
-/
import proofs.«181755_j32770600469142_2_alg».proof.Proof.FrameKernelIdeal
import proofs.«181755_j32770600469142_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KArr

open Cert.KernelIdeal Cert.KernelIdeal.Gen Cert.KernelIdeal.Fr Idealize.ShloMosaic.ValueIdx

variable (m : (ℓ : Loc nD τ sig) → Buf (Elt Ideal) ℓ) (ρ : Dev nD → PrngReg)

/-! ## The arguments, by name -/

abbrev argX (c : Dev nD) : S16x512x768.Idx → EReal := m ((c : Thread nD τ).loc main_arg0)
abbrev argM (c : Dev nD) : S16x512.Idx → EReal := m ((c : Thread nD τ).loc main_arg1)
abbrev argWq (c : Dev nD) : S768x768.Idx → EReal := m ((c : Thread nD τ).loc main_arg2)
abbrev argbq (c : Dev nD) : S768.Idx → EReal := m ((c : Thread nD τ).loc main_arg3)
abbrev argWk (c : Dev nD) : S768x768.Idx → EReal := m ((c : Thread nD τ).loc main_arg4)
abbrev argbk (c : Dev nD) : S768.Idx → EReal := m ((c : Thread nD τ).loc main_arg5)
abbrev argWv (c : Dev nD) : S768x768.Idx → EReal := m ((c : Thread nD τ).loc main_arg6)
abbrev argbv (c : Dev nD) : S768.Idx → EReal := m ((c : Thread nD τ).loc main_arg7)

/-- Grid point `t` as a batch entry. -/
def pt (t : Fin cfg0.N) : Fin 16 := ⟨t.val, lt_of_lt_of_eq t.isLt (N_0 : cfg0.N = 16)⟩

/-- The head and the lane a column of a 768-wide row belongs to. -/
def headOf (j : Fin 768) : Fin 12 := ⟨j.val / 64, by omega⟩
def laneOf (j : Fin 768) : Fin 64 := ⟨j.val % 64, by omega⟩
theorem headOf_col (h : Fin 12) (d : Fin 64) : headOf (Cert.Attn.col h d) = h :=
  Fin.ext (by show (h.val * 64 + d.val) / 64 = h.val; omega)
theorem laneOf_col (h : Fin 12) (d : Fin 64) : laneOf (Cert.Attn.col h d) = d :=
  Fin.ext (by show (h.val * 64 + d.val) % 64 = d.val; omega)
theorem col_head_lane (j : Fin 768) : Cert.Attn.col (headOf j) (laneOf j) = j :=
  Fin.ext (by show j.val / 64 * 64 + j.val % 64 = j.val; omega)

/-- The block index of each operand at each grid point: the rows and the mask move with the point, the weights and
    the bias stay, and the output moves with the point. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-! ## The arrays the host operations prepare -/

/-- The weights operand: the three matrices side by side (rounding to bf16 is the identity on extended reals). -/
theorem joinedW (c : Dev nD) : (entry m c main_v1 : S768x2304.Idx → EReal)
    = concatenate S768x2304 1 [⟨S768x768, argWq m c⟩, ⟨S768x768, argWk m c⟩, ⟨S768x768, argWv m c⟩]
        concatenates_S768x768_S768x768_S768x768_S768x2304_d1 := by
  dsimp only [entry, hostOps0]; after_results; rfl

/-- The bias operand: the three rows joined, as a 1 × 2304 row. -/
theorem joinedB (c : Dev nD) : (entry m c main_v3 : S1x2304.Idx → EReal)
    = shapeCast S1x2304 (concatenate S2304 0 [⟨S768, argbq m c⟩, ⟨S768, argbk m c⟩, ⟨S768, argbv m c⟩]
        concatenates_S768_S768_S768_S2304_d0) shapeCasts_S2304_S1x2304 := by
  dsimp only [entry, hostOps0]; after_results; rfl

/-- The mask operand: the mask with a unit middle axis. -/
theorem maskRows (c : Dev nD) : (entry m c main_v4 : S16x1x512.Idx → EReal)
    = shapeCast S16x1x512 (argM m c) shapeCasts_S16x512_S16x1x512 := by
  dsimp only [entry, hostOps0]; after_results; rfl

/-- Column `pre + j` of three 768-wide pieces side by side is column `j` of the piece that starts at `pre`. -/
theorem joinedW_at (c : Dev nD) (e j : Fin 768) (k : Nat) (hk : k < 3) (x₁ : S768x768.Idx → EReal)
    (hx : [(⟨S768x768, argWq m c⟩ : (s : Shape) × (s.Idx → EReal)), ⟨S768x768, argWk m c⟩, ⟨S768x768, argWv m c⟩][k]'hk = ⟨S768x768, x₁⟩)
    (col : Fin 2304) (hcol : col.val = 768 * k + j.val) :
    (entry m c main_v1 : S768x2304.Idx → EReal) (ix2 e col) = x₁ (ix2 e j) := by
  rw [joinedW]
  refine concatenate_apply_piece (1 : Fin 2)
    [(⟨S768x768, argWq m c⟩ : (s : Shape) × (s.Idx → EReal)), ⟨S768x768, argWk m c⟩, ⟨S768x768, argWv m c⟩]
    _ (ix2 e col) k hk S768x768 x₁ hx rfl (768 * k) ?_ (ix2 e j) ?_ ?_
  · match k, hk with
    | 0, _ => rfl
    | 1, _ => rfl
    | 2, _ => rfl
  · intro b hb
    match b with
    | ⟨0, _⟩ => rfl
    | ⟨1, _⟩ => exact absurd rfl hb
  · show 768 * k + j.val = col.val
    omega

theorem joinedB_at (c : Dev nD) (j : Fin 768) (k : Nat) (hk : k < 3) (x₁ : S768.Idx → EReal)
    (hx : [(⟨S768, argbq m c⟩ : (s : Shape) × (s.Idx → EReal)), ⟨S768, argbk m c⟩, ⟨S768, argbv m c⟩][k]'hk = ⟨S768, x₁⟩)
    (col : Fin 2304) (hcol : col.val = 768 * k + j.val) :
    (entry m c main_v3 : S1x2304.Idx → EReal) (ix2 (0 : Fin 1) col) = x₁ (ix1 j) := by
  rw [joinedB, shapeCast_a_1a_apply]
  refine concatenate_apply_piece (0 : Fin 1)
    [(⟨S768, argbq m c⟩ : (s : Shape) × (s.Idx → EReal)), ⟨S768, argbk m c⟩, ⟨S768, argbv m c⟩]
    _ (ix1 col) k hk S768 x₁ hx rfl (768 * k) ?_ (ix1 j) ?_ ?_
  · match k, hk with
    | 0, _ => rfl
    | 1, _ => rfl
    | 2, _ => rfl
  · intro b hb
    match b with
    | ⟨0, _⟩ => exact absurd rfl hb
  · show 768 * k + j.val = col.val
    omega

theorem maskRows_at (c : Dev nD) (b0 : Fin 16) (j : Fin 512) :
    (entry m c main_v4 : S16x1x512.Idx → EReal) (ix3 b0 (0 : Fin 1) j) = argM m c (ix2 b0 j) := by
  rw [maskRows]
  refine shapeCast_apply _ _ _ _ ?_
  rw [Shape.rowMajor_val_three, Shape.rowMajor_val_two]
  show b0.val * 512 + j.val = (b0.val * 1 + 0) * 512 + j.val
  omega

/-! ## The operands' blocks at a grid point -/

theorem blockX_apply (c : Dev nD) (t : Fin cfg0.N) (x : S1x512x768.Idx) (k : S16x512x768.Idx)
    (hk0 : (k 0).val = t.val) (hk1 : (k 1).val = (x 1).val) (hk2 : (k 2).val = (x 2).val) :
    (blockAt m c 0 t : Vec Ideal S1x512x768 .f32) x = argX m c k := by
  obtain ⟨h0, h1, h2, -⟩ := idx_facts t
  have hx0 : (x 0).val < 1 := (x 0).isLt
  unfold blockAt
  rw [View.read_apply]
  show entry m c main_arg0 _ = _
  rw [entry_arg0]
  show m (c.tc.loc main_arg0) _ = m (c.tc.loc main_arg0) _
  congr 1
  funext a
  apply Fin.ext
  match a with
  | ⟨0, _⟩ => show win0_0.index t 0 * 1 + 1 * (x 0).val = (k 0).val; rw [h0, hk0]; omega
  | ⟨1, _⟩ => show win0_0.index t 1 * 512 + 1 * (x 1).val = (k 1).val; rw [h1, hk1]; omega
  | ⟨2, _⟩ => show win0_0.index t 2 * 768 + 1 * (x 2).val = (k 2).val; rw [h2, hk2]; omega

theorem blockW_apply (c : Dev nD) (t : Fin cfg0.N) (y : S768x2304.Idx) :
    (blockAt m c 1 t : Vec Ideal S768x2304 .bf16) y = (entry m c main_v1 : S768x2304.Idx → EReal) y := by
  obtain ⟨-, -, -, h0, h1, -⟩ := idx_facts t
  unfold blockAt
  rw [View.read_apply]
  show entry m c main_v1 _ = entry m c main_v1 _
  congr 1
  funext a
  apply Fin.ext
  match a with
  | ⟨0, _⟩ => show win0_1.index t 0 * 768 + 1 * (y 0).val = (y 0).val; rw [h0]; omega
  | ⟨1, _⟩ => show win0_1.index t 1 * 2304 + 1 * (y 1).val = (y 1).val; rw [h1]; omega

theorem blockB_apply (c : Dev nD) (t : Fin cfg0.N) (y : S1x2304.Idx) :
    (blockAt m c 2 t : Vec Ideal S1x2304 .f32) y = (entry m c main_v3 : S1x2304.Idx → EReal) y := by
  obtain ⟨-, -, -, -, -, h0, h1, -⟩ := idx_facts t
  unfold blockAt
  rw [View.read_apply]
  show entry m c main_v3 _ = entry m c main_v3 _
  congr 1
  funext a
  apply Fin.ext
  match a with
  | ⟨0, _⟩ => show win0_2.index t 0 * 1 + 1 * (y 0).val = (y 0).val; rw [h0]; omega
  | ⟨1, _⟩ => show win0_2.index t 1 * 2304 + 1 * (y 1).val = (y 1).val; rw [h1]; omega

theorem blockM_apply (c : Dev nD) (t : Fin cfg0.N) (x : S1x1x512.Idx) (k : S16x1x512.Idx)
    (hk0 : (k 0).val = t.val) (hk1 : (k 1).val = (x 1).val) (hk2 : (k 2).val = (x 2).val) :
    (blockAt m c 3 t : Vec Ideal S1x1x512 .f32) x = (entry m c main_v4 : S16x1x512.Idx → EReal) k := by
  obtain ⟨-, -, -, -, -, -, -, h0, h1, h2, -⟩ := idx_facts t
  have hx0 : (x 0).val < 1 := (x 0).isLt
  unfold blockAt
  rw [View.read_apply]
  show entry m c main_v4 _ = entry m c main_v4 _
  congr 1
  funext a
  apply Fin.ext
  match a with
  | ⟨0, _⟩ => show win0_3.index t 0 * 1 + 1 * (x 0).val = (k 0).val; rw [h0, hk0]; omega
  | ⟨1, _⟩ => show win0_3.index t 1 * 1 + 1 * (x 1).val = (k 1).val; rw [h1, hk1]; omega
  | ⟨2, _⟩ => show win0_3.index t 2 * 512 + 1 * (x 2).val = (k 2).val; rw [h2, hk2]; omega

/-! ## The whole result -/

/-- The result array, index by index: entry `(b₀, s, j)` is the attention formula for batch entry `b₀` at row `s`,
    head `j / 64`, lane `j % 64`. -/
def wholeResult (c : Dev nD) : S16x512x768.Idx → EReal := fun i =>
  Cert.Attn.attn Cert.Attn.scaleMul (fun s e => argX m c (ix3 (i 0) s e)) (fun j => argM m c (ix2 (i 0) j))
    (fun e j => argWq m c (ix2 e j)) (fun j => argbq m c (ix1 j))
    (fun e j => argWk m c (ix2 e j)) (fun j => argbk m c (ix1 j))
    (fun e j => argWv m c (ix2 e j)) (fun j => argbv m c (ix1 j)) (i 1) (headOf (i 2)) (laneOf (i 2))

/-- What the body's stored value is, entry by entry, in terms of its four loaded blocks (proved where the payloads
    are read; taken here as a hypothesis so that this module stands on the frame alone). -/
def ResultAt : Prop :=
  ∀ (x : Vec Ideal S1x512x768 .f32) (w : Vec Ideal S768x2304 .bf16) (b : Vec Ideal S1x2304 .f32) (k : Vec Ideal S1x1x512 .f32)
    (s : Fin 512) (h : Fin 12) (d : Fin 64),
    Fr.result (F := Ideal) x w b k (ix3 (0 : Fin 1) s (Cert.Attn.col h d))
      = Cert.Attn.attn Cert.Attn.scaleMul (fun s e => x (ix3 0 s e)) (fun j => k (ix3 0 0 j))
          (fun e j => w (ix2 e ⟨j.val, by omega⟩)) (fun j => b (ix2 0 ⟨j.val, by omega⟩))
          (fun e j => w (ix2 e ⟨768 + j.val, by omega⟩)) (fun j => b (ix2 0 ⟨768 + j.val, by omega⟩))
          (fun e j => w (ix2 e ⟨1536 + j.val, by omega⟩)) (fun j => b (ix2 0 ⟨1536 + j.val, by omega⟩)) s h d

theorem hz3 : (![0, 0, 0] : Fin 3 → Nat) = fun _ => 0 := funext fun a => by fin_cases a <;> rfl
theorem hz2 : (![0, 0] : Fin 2 → Nat) = fun _ => 0 := funext fun a => by fin_cases a <;> rfl

/-- Where the output's block at point `t` sits in the result: batch entry `t`, all rows, all columns. -/
theorem out_emb (t : Fin cfg0.N) (y : S1x512x768.Idx) :
    ((cfg0.win 4).blk t).view.emb y = ix3 (pt t) (y 1) (y 2) := by
  obtain ⟨-, -, -, -, -, -, -, -, -, -, h0, h1, h2⟩ := idx_facts t
  have hy0 : (y 0).val < 1 := (y 0).isLt
  funext a
  apply Fin.ext
  match a with
  | ⟨0, _⟩ => show win0_4.index t 0 * 1 + 1 * (y 0).val = t.val; rw [h0]; omega
  | ⟨1, _⟩ => show win0_4.index t 1 * 512 + 1 * (y 1).val = (y 1).val; rw [h1]; omega
  | ⟨2, _⟩ => show win0_4.index t 2 * 768 + 1 * (y 2).val = (y 2).val; rw [h2]; omega

/-- What point `t` writes back is block `t` of `wholeResult`. -/
theorem flushed_eq (hres : ResultAt) (c : Dev nD) (t : Fin cfg0.N) :
    (pdata m 0 c).flushed 4 t = ((cfg0.win 4).blk t).view.read (Elt Ideal) (wholeResult m c) := by
  show (cfg0.win 4).cut (grid0.coords t) ((pdata m 0 c).after 4 t) = _
  rw [after_4]
  unfold stored
  rw [View.canon_unit_zero hz3]
  simp only [View.ld_unit_zero (S := S1x512x768) hz3, View.ld_unit_zero (S := S768x2304) hz2,
    View.ld_unit_zero (S := S1x2304) hz2, View.ld_unit_zero (S := S1x1x512) hz3]
  refine funext fun (y : S1x512x768.Idx) => ?_
  obtain ⟨u, s, j, rfl⟩ : ∃ (u : Fin 1) (s : Fin 512) (j : Fin 768), y = ix3 u s j := ⟨y 0, y 1, y 2, eq_ix3 y⟩
  obtain rfl : u = 0 := Fin.ext (by omega)
  obtain ⟨h, d, rfl⟩ : ∃ h d, j = Cert.Attn.col h d := ⟨headOf j, laneOf j, (col_head_lane j).symm⟩
  show result (blockAt m c 0 t) (blockAt m c 1 t) (blockAt m c 2 t) (blockAt m c 3 t) (ix3 (0 : Fin 1) s (Cert.Attn.col h d))
    = wholeResult m c (((cfg0.win 4).blk t).view.emb (ix3 (0 : Fin 1) s (Cert.Attn.col h d)))
  rw [out_emb]
  refine (hres _ _ _ _ s h d).trans ?_
  unfold wholeResult
  show _ = Cert.Attn.attn Cert.Attn.scaleMul (fun s e => argX m c (ix3 (pt t) s e)) (fun j => argM m c (ix2 (pt t) j))
    (fun e j => argWq m c (ix2 e j)) (fun j => argbq m c (ix1 j))
    (fun e j => argWk m c (ix2 e j)) (fun j => argbk m c (ix1 j))
    (fun e j => argWv m c (ix2 e j)) (fun j => argbv m c (ix1 j)) s
    (headOf (Cert.Attn.col h d)) (laneOf (Cert.Attn.col h d))
  rw [headOf_col, laneOf_col]
  have eX : (fun (s : Fin 512) (e : Fin 768) => (blockAt m c 0 t : Vec Ideal S1x512x768 .f32) (ix3 (0 : Fin 1) s e))
      = fun s e => argX m c (ix3 (pt t) s e) :=
    funext fun s => funext fun e => blockX_apply m c t _ _ rfl rfl rfl
  have eM : (fun (j : Fin 512) => (blockAt m c 3 t : Vec Ideal S1x1x512 .f32) (ix3 (0 : Fin 1) (0 : Fin 1) j))
      = fun j => argM m c (ix2 (pt t) j) :=
    funext fun j => (blockM_apply m c t _ (ix3 (pt t) (0 : Fin 1) j) rfl rfl rfl).trans (maskRows_at m c (pt t) j)
  have eWq : (fun (e j : Fin 768) => (blockAt m c 1 t : Vec Ideal S768x2304 .bf16) (ix2 e ⟨j.val, by omega⟩))
      = fun e j => argWq m c (ix2 e j) :=
    funext fun e => funext fun j => (blockW_apply m c t _).trans (joinedW_at m c e j 0 (by decide) _ rfl _ (by show j.val = 768 * 0 + j.val; omega))
  have eWk : (fun (e j : Fin 768) => (blockAt m c 1 t : Vec Ideal S768x2304 .bf16) (ix2 e ⟨768 + j.val, by omega⟩))
      = fun e j => argWk m c (ix2 e j) :=
    funext fun e => funext fun j => (blockW_apply m c t _).trans (joinedW_at m c e j 1 (by decide) _ rfl _ (by show 768 + j.val = 768 * 1 + j.val; omega))
  have eWv : (fun (e j : Fin 768) => (blockAt m c 1 t : Vec Ideal S768x2304 .bf16) (ix2 e ⟨1536 + j.val, by omega⟩))
      = fun e j => argWv m c (ix2 e j) :=
    funext fun e => funext fun j => (blockW_apply m c t _).trans (joinedW_at m c e j 2 (by decide) _ rfl _ (by show 1536 + j.val = 768 * 2 + j.val; omega))
  have ebq : (fun (j : Fin 768) => (blockAt m c 2 t : Vec Ideal S1x2304 .f32) (ix2 (0 : Fin 1) ⟨j.val, by omega⟩))
      = fun j => argbq m c (ix1 j) :=
    funext fun j => (blockB_apply m c t _).trans (joinedB_at m c j 0 (by decide) _ rfl _ (by show j.val = 768 * 0 + j.val; omega))
  have ebk : (fun (j : Fin 768) => (blockAt m c 2 t : Vec Ideal S1x2304 .f32) (ix2 (0 : Fin 1) ⟨768 + j.val, by omega⟩))
      = fun j => argbk m c (ix1 j) :=
    funext fun j => (blockB_apply m c t _).trans (joinedB_at m c j 1 (by decide) _ rfl _ (by show 768 + j.val = 768 * 1 + j.val; omega))
  have ebv : (fun (j : Fin 768) => (blockAt m c 2 t : Vec Ideal S1x2304 .f32) (ix2 (0 : Fin 1) ⟨1536 + j.val, by omega⟩))
      = fun j => argbv m c (ix1 j) :=
    funext fun j => (blockB_apply m c t _).trans (joinedB_at m c j 2 (by decide) _ rfl _ (by show 1536 + j.val = 768 * 2 + j.val; omega))
  rw [eX, eM, eWq, eWk, eWv, ebq, ebk, ebv]

/-! ## The cover and the run -/

theorem mem_blk (t : Fin cfg0.N) (i : S16x512x768.Idx) :
    i ∈ ((cfg0.win 4).blk t).view.set ↔ ∀ a : Fin 3, win0_4.index t a * S1x512x768.size a ≤ (i a).val
      ∧ (i a).val < win0_4.index t a * S1x512x768.size a + S1x512x768.size a := by
  show i ∈ ((View.whole main_v5).slice (win0_4.rect t)).set ↔ _
  rw [View.set_slice_whole, Rect.mem_set_unit]
  exact Iff.rfl

/-- Every index of the result lies in the block of the point its batch coordinate names. -/
theorem covered (i : S16x512x768.Idx) :
    ∃ t : Fin cfg0.N, (cfg0.win 4).flush t = true ∧ i ∈ ((cfg0.win 4).blk t).view.set := by
  have hi0 : (i 0).val < 16 := (i 0).isLt
  have hi1 : (i 1).val < 512 := (i 1).isLt
  have hi2 : (i 2).val < 768 := (i 2).isLt
  have hN : cfg0.N = 16 := N_0
  refine ⟨⟨(i 0).val, by rw [hN]; exact hi0⟩, flush0_4 _, ?_⟩
  rw [mem_blk]
  obtain ⟨-, -, -, -, -, -, -, -, -, -, h0, h1, h2⟩ := idx_facts ⟨(i 0).val, by rw [hN]; exact hi0⟩
  intro a
  match a with
  | ⟨0, _⟩ =>
    show win0_4.index _ 0 * 1 ≤ (i 0).val ∧ (i 0).val < win0_4.index _ 0 * 1 + 1
    rw [h0]; show (i 0).val * 1 ≤ (i 0).val ∧ (i 0).val < (i 0).val * 1 + 1; omega
  | ⟨1, _⟩ =>
    show win0_4.index _ 1 * 512 ≤ (i 1).val ∧ (i 1).val < win0_4.index _ 1 * 512 + 512
    rw [h1]; omega
  | ⟨2, _⟩ =>
    show win0_4.index _ 2 * 768 ≤ (i 2).val ∧ (i 2).val < win0_4.index _ 2 * 768 + 768
    rw [h2]; omega

/-- So the result array after the run is `wholeResult`. -/
theorem final (hres : ResultAt) (c : Dev nD) : (pdata m 0 c).arrAt 4 cfg0.N = wholeResult m c :=
  (pdata m 0 c).arrAt_eq_of_cover 4 (wholeResult m c) (fun t _ => flushed_eq m hres c t) (covered)

/-- The run, read: the result at `wholeResult`, the eight arguments unchanged. -/
theorem run (hres : ResultAt) : θ_run defs (onTc (τ := τ) (main (F := Ideal))) ⟨m, fun _ => 0, ρ⟩ fun r => ∀ c : Dev nD,
      r.2.mem ((c.tc : Thread nD τ).loc main_v5) = wholeResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).1 4).trans (final m hres c),
      ((h c).1 0).trans (((pdata m 0 c).arrAt_in 0 rfl _).trans ((pdata_A m c 0).trans (entry_arg0 m c))),
      ((h c).2 main_arg1 (Pipeline.mem_restRefs_of main_arg1 (by decide) (by decide))).trans (entry_arg1 m c),
      ((h c).2 main_arg2 (Pipeline.mem_restRefs_of main_arg2 (by decide) (by decide))).trans (entry_arg2 m c),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c)⟩)
    (run_main m ρ)

end Cert.KernelIdeal.KArr

end
-- ==== Proof.RefValue.lean ====
/-
  The reference program read as formulas: each stage of the reference, at explicit coordinates, is the
  matching quantity of the attention specification.

  With batch entry `b0` fixed, write Xb for its 512 × 768 rows and m for its mask row.  The three linear maps
  are reshaped to heads, so stage entry (b0, h, s, d) is column 64 h + d of row s of the projection.  From there:
  the scaled dot products plus the mask row are the scores of head h; the reduce with a maximum from −∞
  is the row maximum; the exponential of the difference, its sum along the row, and the quotient are the
  weights; the contraction against the values is the head's output; and the final transpose and reshape put
  head h, lane d at column 64 h + d again.
-/
import proofs.«181755_j32770600469142_2_alg».proof.Proof.Gen.ReferenceIdeal.Read
import proofs.«181755_j32770600469142_2_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx Idealize.ShloMosaic.StableHlo

/-- The rows of batch entry `b0`. -/
abbrev rowsOf (X : (⟨S16x512x768, .f32⟩ : BufTy).Contents (Elt Ideal)) (b0 : Fin 16) : Fin 512 → Fin 768 → EReal :=
  fun s e => X (ix3 b0 s e)
/-- The mask row of batch entry `b0`. -/
abbrev maskOf (M : (⟨S16x512, .f32⟩ : BufTy).Contents (Elt Ideal)) (b0 : Fin 16) : Fin 512 → EReal :=
  fun j => M (ix2 b0 j)
/-- A weight matrix by its two coordinates. -/
abbrev matOf (W : (⟨S768x768, .f32⟩ : BufTy).Contents (Elt Ideal)) : Fin 768 → Fin 768 → EReal :=
  fun e j => W (ix2 e j)
/-- A bias vector by its coordinate. -/
abbrev vecOf (b : (⟨S768, .f32⟩ : BufTy).Contents (Elt Ideal)) : Fin 768 → EReal :=
  fun j => b (ix1 j)

/-! ## The projections -/

/-- Head `h`, lane `d` of row `s` sits at column `64 h + d` of the unreshaped projection. -/
theorem idx_heads (b0 : Fin 16) (h : Fin 12) (s : Fin 512) (d : Fin 64) :
    idx_main_v4 (idx_main_v5 (ix4 b0 h s d)) = ix3 b0 s (Cert.Attn.col h d) := by
  funext a
  apply Fin.ext
  have hb := b0.isLt; have hh := h.isLt; have hs := s.isLt; have hd := d.isLt
  match a with
  | ⟨0, _⟩ => show (((b0.val * 512 + s.val) * 12 + h.val) * 64 + d.val) / 393216 = b0.val; omega
  | ⟨1, _⟩ => show (((b0.val * 512 + s.val) * 12 + h.val) * 64 + d.val) / 768 % 512 = s.val; omega
  | ⟨2, _⟩ => show (((b0.val * 512 + s.val) * 12 + h.val) * 64 + d.val) % 768 = h.val * 64 + d.val; omega

/-- The first projection at (b0, h, s, d) is the linear map's entry (s, 64 h + d). -/
theorem proj_at (X : (⟨S16x512x768, .f32⟩ : BufTy).Contents (Elt Ideal)) (W : (⟨S768x768, .f32⟩ : BufTy).Contents (Elt Ideal))
    (b : (⟨S768, .f32⟩ : BufTy).Contents (Elt Ideal)) (b0 : Fin 16) (h : Fin 12) (s : Fin 512) (d : Fin 64) :
    val_main_v5 (F := Ideal) X W b (ix4 b0 h s d)
      = Cert.Attn.proj (rowsOf X b0) (matOf W) (vecOf b) s (Cert.Attn.col h d) := by
  rw [val_main_v5_apply, val_main_v4_apply, idx_heads, val_main_v3_apply, val_main_v0_apply, val_main_v2_apply, val_main_v1_apply]
  unfold Cert.Attn.proj
  rw [Ideal.addf_def]
  refine congrArg₂ (· + ·) (Finset.sum_congr rfl fun k _ => ?_) ?_
  · refine congrArg₂ (· * ·) (congrArg X ?_) (congrArg W ?_)
    · funext a; match a with | ⟨0, _⟩ => rfl | ⟨1, _⟩ => rfl | ⟨2, _⟩ => rfl
    · funext a; match a with | ⟨0, _⟩ => rfl | ⟨1, _⟩ => rfl
  · refine congrArg b ?_
    funext a; match a with | ⟨0, _⟩ => rfl

/-- The second and third projections are the same operations on other weights. -/
theorem v11_eq (X : (⟨S16x512x768, .f32⟩ : BufTy).Contents (Elt Ideal)) (W : (⟨S768x768, .f32⟩ : BufTy).Contents (Elt Ideal))
    (b : (⟨S768, .f32⟩ : BufTy).Contents (Elt Ideal)) : val_main_v11 (F := Ideal) X W b = val_main_v5 (F := Ideal) X W b := rfl
theorem v17_eq (X : (⟨S16x512x768, .f32⟩ : BufTy).Contents (Elt Ideal)) (W : (⟨S768x768, .f32⟩ : BufTy).Contents (Elt Ideal))
    (b : (⟨S768, .f32⟩ : BufTy).Contents (Elt Ideal)) : val_main_v17 (F := Ideal) X W b = val_main_v5 (F := Ideal) X W b := rfl

/-! ## The scores -/

/-- The scores of head `h` of batch entry `b0`, as the specification writes them. -/
abbrev scoresOf (X : (⟨S16x512x768, .f32⟩ : BufTy).Contents (Elt Ideal)) (M : (⟨S16x512, .f32⟩ : BufTy).Contents (Elt Ideal))
    (Wq : (⟨S768x768, .f32⟩ : BufTy).Contents (Elt Ideal)) (bq : (⟨S768, .f32⟩ : BufTy).Contents (Elt Ideal))
    (Wk : (⟨S768x768, .f32⟩ : BufTy).Contents (Elt Ideal)) (bk : (⟨S768, .f32⟩ : BufTy).Contents (Elt Ideal))
    (b0 : Fin 16) (h : Fin 12) : Fin 512 → Fin 512 → EReal :=
  Cert.Attn.scores Cert.Attn.scaleDiv
    (fun s d => Cert.Attn.proj (rowsOf X b0) (matOf Wq) (vecOf bq) s (Cert.Attn.col h d))
    (fun j d => Cert.Attn.proj (rowsOf X b0) (matOf Wk) (vecOf bk) j (Cert.Attn.col h d))
    (fun j => maskOf M b0 j * Cert.Attn.negBig)

/-- Stage 26 at (b0, h, s, j): the query–key dot product over the 64 lanes, divided by √64, plus the mask entry times −10⁹. -/
theorem scores_at (X : (⟨S16x512x768, .f32⟩ : BufTy).Contents (Elt Ideal)) (M : (⟨S16x512, .f32⟩ : BufTy).Contents (Elt Ideal))
    (Wq : (⟨S768x768, .f32⟩ : BufTy).Contents (Elt Ideal)) (bq : (⟨S768, .f32⟩ : BufTy).Contents (Elt Ideal))
    (Wk : (⟨S768x768, .f32⟩ : BufTy).Contents (Elt Ideal)) (bk : (⟨S768, .f32⟩ : BufTy).Contents (Elt Ideal))
    (b0 : Fin 16) (h : Fin 12) (s j : Fin 512) :
    val_main_v26 (F := Ideal) X M Wq bq Wk bk (ix4 b0 h s j) = scoresOf X M Wq bq Wk bk b0 h s j := by
  rw [val_main_v26_apply, val_main_v21_apply, val_main_v18_apply, val_main_v20_apply, val_main_v19_apply, val_main_cst_apply,
    val_main_v25_apply, val_main_v24_apply, val_main_v23_apply, val_main_v22_apply, val_main_cst_0_apply]
  rw [Ideal.addf_def, Ideal.hostDivf_def, Ideal.hostUnary_sqrt_def, Ideal.ofBits_def, Ideal.mulf_def, Ideal.ofBits_def]
  show _ = Cert.Attn.scaleDiv _ + _
  unfold Cert.Attn.scaleDiv
  refine congrArg₂ (· + ·) (congrArg (Ideal.div · _) (Finset.sum_congr rfl fun k _ => ?_)) (congrArg (· * _) (congrArg M ?_))
  · rw [v11_eq]
    have el : lidx_main_v18 (ix4 b0 h s j) k = ix4 b0 h s k := by
      funext a; match a with | ⟨0, _⟩ => rfl | ⟨1, _⟩ => rfl | ⟨2, _⟩ => rfl | ⟨3, _⟩ => rfl
    have er : ridx_main_v18 (ix4 b0 h s j) k = ix4 b0 h j k := by
      funext a; match a with | ⟨0, _⟩ => rfl | ⟨1, _⟩ => rfl | ⟨2, _⟩ => rfl | ⟨3, _⟩ => rfl
    rw [el, er, proj_at, proj_at]
  · funext a; match a with | ⟨0, _⟩ => rfl | ⟨1, _⟩ => rfl

/-! ## The row maximum -/

/-- The last axis is the one reduced. -/
theorem reduces_last : S16x12x512x512.Reduces [3] S16x12x512 := by decide

/-- The reduced index (b0, h, s) with coordinate `k` put back on the last axis is (b0, h, s, k). -/
theorem lift_last (b0 : Fin 16) (h : Fin 12) (s : Fin 512) (k : Fin (S16x12x512x512.size 3)) :
    reduces_last.lift (ix3 b0 h s) k = ix4 b0 h s (⟨k.val, k.isLt⟩ : Fin 512) := by
  funext c; apply Fin.ext
  fin_cases c <;> rfl

/-- Stage 27, the reduce with a maximum from the −∞ word, at (b0, h, s): the maximum over the row, from −∞. -/
theorem max_at (X : (⟨S16x512x768, .f32⟩ : BufTy).Contents (Elt Ideal)) (M : (⟨S16x512, .f32⟩ : BufTy).Contents (Elt Ideal))
    (Wq : (⟨S768x768, .f32⟩ : BufTy).Contents (Elt Ideal)) (bq : (⟨S768, .f32⟩ : BufTy).Contents (Elt Ideal))
    (Wk : (⟨S768x768, .f32⟩ : BufTy).Contents (Elt Ideal)) (bk : (⟨S768, .f32⟩ : BufTy).Contents (Elt Ideal))
    (b0 : Fin 16) (h : Fin 12) (s : Fin 512) :
    val_main_v27 (F := Ideal) X M Wq bq Wk bk (ix3 b0 h s) = Cert.Attn.rowMax (scoresOf X M Wq bq Wk bk b0 h) s := by
  unfold val_main_v27
  rw [Host.reduce_eq_fold_single FloatOps.maximumf _ _ reducesTo_S16x12x512x512_S16x12x512_d3 reduces_last h_S_]
  rw [val_main_cst_1_apply, Ideal.ofBits_def, Cert.Attn.ofBits_neg_inf]
  unfold Cert.Attn.rowMax
  have hf : (val_main_v26 (F := Ideal) X M Wq bq Wk bk ∘ reduces_last.lift (ix3 b0 h s))
      = fun k : Fin 512 => scoresOf X M Wq bq Wk bk b0 h s k :=
    funext fun k => (congrArg (val_main_v26 (F := Ideal) X M Wq bq Wk bk) (lift_last b0 h s k)).trans (scores_at X M Wq bq Wk bk b0 h s k)
  exact congrArg (fun f => Finset.fold max (⊥ : EReal) f (Finset.univ : Finset (Fin 512))) hf

/-- Stage 29 takes the maximum with −∞ once more, which changes nothing. -/
theorem rowMax_at (X : (⟨S16x512x768, .f32⟩ : BufTy).Contents (Elt Ideal)) (M : (⟨S16x512, .f32⟩ : BufTy).Contents (Elt Ideal))
    (Wq : (⟨S768x768, .f32⟩ : BufTy).Contents (Elt Ideal)) (bq : (⟨S768, .f32⟩ : BufTy).Contents (Elt Ideal))
    (Wk : (⟨S768x768, .f32⟩ : BufTy).Contents (Elt Ideal)) (bk : (⟨S768, .f32⟩ : BufTy).Contents (Elt Ideal))
    (b0 : Fin 16) (h : Fin 12) (s : Fin 512) :
    val_main_v29 (F := Ideal) X M Wq bq Wk bk (ix3 b0 h s) = Cert.Attn.rowMax (scoresOf X M Wq bq Wk bk b0 h) s := by
  rw [val_main_v29_apply, val_main_v28_apply, val_main_cst_2_apply, max_at, Ideal.maximumf_def, Ideal.ofBits_def,
    Cert.Attn.ofBits_neg_inf]
  exact max_eq_right bot_le

/-! ## Exponentials, their row sums, and the weights -/

/-- Stage 33 at (b0, h, s, j): the exponential of the score less its row's maximum. -/
theorem expo_at (X : (⟨S16x512x768, .f32⟩ : BufTy).Contents (Elt Ideal)) (M : (⟨S16x512, .f32⟩ : BufTy).Contents (Elt Ideal))
    (Wq : (⟨S768x768, .f32⟩ : BufTy).Contents (Elt Ideal)) (bq : (⟨S768, .f32⟩ : BufTy).Contents (Elt Ideal))
    (Wk : (⟨S768x768, .f32⟩ : BufTy).Contents (Elt Ideal)) (bk : (⟨S768, .f32⟩ : BufTy).Contents (Elt Ideal))
    (b0 : Fin 16) (h : Fin 12) (s j : Fin 512) :
    val_main_v33 (F := Ideal) X M Wq bq Wk bk (ix4 b0 h s j) = Cert.Attn.expo (scoresOf X M Wq bq Wk bk b0 h) s j := by
  have e : idx_main_v30 (idx_main_v31 (ix4 b0 h s j)) = ix3 b0 h s := by
    funext a; match a with | ⟨0, _⟩ => rfl | ⟨1, _⟩ => rfl | ⟨2, _⟩ => rfl
  rw [val_main_v33_apply, val_main_v32_apply, val_main_v31_apply, val_main_v30_apply, e, rowMax_at, scores_at,
    Ideal.hostUnary_exp_def, Ideal.subf_def]
  rfl

/-- Stage 34 at (b0, h, s): the sum of the row's exponentials (the initial word is zero). -/
theorem expoSum_at (X : (⟨S16x512x768, .f32⟩ : BufTy).Contents (Elt Ideal)) (M : (⟨S16x512, .f32⟩ : BufTy).Contents (Elt Ideal))
    (Wq : (⟨S768x768, .f32⟩ : BufTy).Contents (Elt Ideal)) (bq : (⟨S768, .f32⟩ : BufTy).Contents (Elt Ideal))
    (Wk : (⟨S768x768, .f32⟩ : BufTy).Contents (Elt Ideal)) (bk : (⟨S768, .f32⟩ : BufTy).Contents (Elt Ideal))
    (b0 : Fin 16) (h : Fin 12) (s : Fin 512) :
    val_main_v34 (F := Ideal) X M Wq bq Wk bk (ix3 b0 h s)
      = ∑ j' : Fin 512, Cert.Attn.expo (scoresOf X M Wq bq Wk bk b0 h) s j' := by
  rw [val_main_v34_apply, val_main_cst_3_apply, Ideal.ofBits_def, Ideal.ofBits_zero_f32, zero_add]
  refine Finset.sum_congr rfl fun k _ => ?_
  have e : idx_main_v34 (ix3 b0 h s) k = ix4 b0 h s k := by
    funext a; match a with | ⟨0, _⟩ => rfl | ⟨1, _⟩ => rfl | ⟨2, _⟩ => rfl | ⟨3, _⟩ => rfl
  rw [e, expo_at]

/-- Stage 37 at (b0, h, s, j): the exponential over its row's sum. -/
theorem weight_at (X : (⟨S16x512x768, .f32⟩ : BufTy).Contents (Elt Ideal)) (M : (⟨S16x512, .f32⟩ : BufTy).Contents (Elt Ideal))
    (Wq : (⟨S768x768, .f32⟩ : BufTy).Contents (Elt Ideal)) (bq : (⟨S768, .f32⟩ : BufTy).Contents (Elt Ideal))
    (Wk : (⟨S768x768, .f32⟩ : BufTy).Contents (Elt Ideal)) (bk : (⟨S768, .f32⟩ : BufTy).Contents (Elt Ideal))
    (b0 : Fin 16) (h : Fin 12) (s j : Fin 512) :
    val_main_v37 (F := Ideal) X M Wq bq Wk bk (ix4 b0 h s j) = Cert.Attn.weight (scoresOf X M Wq bq Wk bk b0 h) s j := by
  have e : idx_main_v35 (idx_main_v36 (ix4 b0 h s j)) = ix3 b0 h s := by
    funext a; match a with | ⟨0, _⟩ => rfl | ⟨1, _⟩ => rfl | ⟨2, _⟩ => rfl
  rw [val_main_v37_apply, val_main_v36_apply, val_main_v35_apply, e, expoSum_at, expo_at, Ideal.hostDivf_def]
  rfl

/-! ## The head's output and the result -/

/-- Stage 38 at (b0, h, s, d): the weights of row `s` against lane `d` of the head's values. -/
theorem head_at (X : (⟨S16x512x768, .f32⟩ : BufTy).Contents (Elt Ideal)) (M : (⟨S16x512, .f32⟩ : BufTy).Contents (Elt Ideal))
    (Wq : (⟨S768x768, .f32⟩ : BufTy).Contents (Elt Ideal)) (bq : (⟨S768, .f32⟩ : BufTy).Contents (Elt Ideal))
    (Wk : (⟨S768x768, .f32⟩ : BufTy).Contents (Elt Ideal)) (bk : (⟨S768, .f32⟩ : BufTy).Contents (Elt Ideal))
    (Wv : (⟨S768x768, .f32⟩ : BufTy).Contents (Elt Ideal)) (bv : (⟨S768, .f32⟩ : BufTy).Contents (Elt Ideal))
    (b0 : Fin 16) (h : Fin 12) (s : Fin 512) (d : Fin 64) :
    val_main_v38 (F := Ideal) X M Wq bq Wk bk Wv bv (ix4 b0 h s d)
      = Cert.Attn.headOut (scoresOf X M Wq bq Wk bk b0 h)
          (fun j d => Cert.Attn.proj (rowsOf X b0) (matOf Wv) (vecOf bv) j (Cert.Attn.col h d)) s d := by
  rw [val_main_v38_apply]
  unfold Cert.Attn.headOut
  refine Finset.sum_congr rfl fun k _ => ?_
  have el : lidx_main_v38 (ix4 b0 h s d) k = ix4 b0 h s k := by
    funext a; match a with | ⟨0, _⟩ => rfl | ⟨1, _⟩ => rfl | ⟨2, _⟩ => rfl | ⟨3, _⟩ => rfl
  have er : ridx_main_v38 (ix4 b0 h s d) k = ix4 b0 h k d := by
    funext a; match a with | ⟨0, _⟩ => rfl | ⟨1, _⟩ => rfl | ⟨2, _⟩ => rfl | ⟨3, _⟩ => rfl
  rw [el, er, weight_at, v17_eq, proj_at]

/-- Column `64 h + d` of row `s` of the result is head `h`, lane `d` of row `s`. -/
theorem idx_merge (b0 : Fin 16) (s : Fin 512) (h : Fin 12) (d : Fin 64) :
    idx_main_v39 (idx_main_v40 (ix3 b0 s (Cert.Attn.col h d))) = ix4 b0 h s d := by
  funext a
  apply Fin.ext
  have hb := b0.isLt; have hh := h.isLt; have hs := s.isLt; have hd := d.isLt
  match a with
  | ⟨0, _⟩ => show ((b0.val * 512 + s.val) * 768 + (h.val * 64 + d.val)) / 393216 = b0.val; omega
  | ⟨1, _⟩ => show ((b0.val * 512 + s.val) * 768 + (h.val * 64 + d.val)) / 64 % 12 = h.val; omega
  | ⟨2, _⟩ => show ((b0.val * 512 + s.val) * 768 + (h.val * 64 + d.val)) / 768 % 512 = s.val; omega
  | ⟨3, _⟩ => show ((b0.val * 512 + s.val) * 768 + (h.val * 64 + d.val)) % 64 = d.val; omega

/-- The reference's result at row `s`, column `64 h + d` of batch entry `b0` is the attention formula at its own rescaling. -/
theorem ref_at (X : (⟨S16x512x768, .f32⟩ : BufTy).Contents (Elt Ideal)) (M : (⟨S16x512, .f32⟩ : BufTy).Contents (Elt Ideal))
    (Wq : (⟨S768x768, .f32⟩ : BufTy).Contents (Elt Ideal)) (bq : (⟨S768, .f32⟩ : BufTy).Contents (Elt Ideal))
    (Wk : (⟨S768x768, .f32⟩ : BufTy).Contents (Elt Ideal)) (bk : (⟨S768, .f32⟩ : BufTy).Contents (Elt Ideal))
    (Wv : (⟨S768x768, .f32⟩ : BufTy).Contents (Elt Ideal)) (bv : (⟨S768, .f32⟩ : BufTy).Contents (Elt Ideal))
    (b0 : Fin 16) (s : Fin 512) (h : Fin 12) (d : Fin 64) :
    Cert.ReferenceIdeal.Read.val_main_v40 (F := Ideal) X M Wq bq Wk bk Wv bv (ValueIdx.ix3 b0 s (Cert.Attn.col h d))
      = Cert.Attn.attn Cert.Attn.scaleDiv (fun s e => X (ValueIdx.ix3 b0 s e)) (fun j => M (ValueIdx.ix2 b0 j))
          (fun e j => Wq (ValueIdx.ix2 e j)) (fun j => bq (ValueIdx.ix1 j)) (fun e j => Wk (ValueIdx.ix2 e j)) (fun j => bk (ValueIdx.ix1 j))
          (fun e j => Wv (ValueIdx.ix2 e j)) (fun j => bv (ValueIdx.ix1 j)) s h d := by
  rw [val_main_v40_apply, val_main_v39_apply, idx_merge, head_at]
  rfl

end Cert.ReferenceIdeal.RefValue

end
-- ==== Proof.Assembly.lean ====
/-
  The two value legs joined. The kernel's result array is `wholeResult` of its arguments (KernelArray.lean); the
  reference's result is its last stage, which read at an index is the same attention formula with the other
  rescaling (RefValue.lean); the two rescalings are one function (`Cert.Attn.scale_eq`: ×1/8 is ÷√64); and the
  two programs start from memories that agree on the eight arguments.
-/
import proofs.«181755_j32770600469142_2_alg».proof.Defs
import proofs.«181755_j32770600469142_2_alg».proof.Proof.FrameKernel
import proofs.«181755_j32770600469142_2_alg».proof.Proof.FrameKernelIdeal
import proofs.«181755_j32770600469142_2_alg».proof.Proof.KernelArray
import proofs.«181755_j32770600469142_2_alg».proof.Proof.RefValue
import proofs.«181755_j32770600469142_2_alg».proof.Proof.Spec
import proofs.«181755_j32770600469142_2_alg».proof.Proof.Gen.ReferenceIdeal.Run
import proofs.«181755_j32770600469142_2_alg».proof.Proof.Gen.ReferenceIdeal.Read
import proofs.«181755_j32770600469142_2_alg».proof.Proof.Gen.Kernel
import proofs.«181755_j32770600469142_2_alg».proof.Proof.Gen.KernelIdeal
import proofs.«181755_j32770600469142_2_alg».proof.Proof.Gen.ReferenceIdeal
import proofs.«181755_j32770600469142_2_alg».proof.Proof.Gen.Pre_finite_inputs

noncomputable section

open Idealize.ShloMosaic Idealize.ShloMosaic.TcCoe Idealize.SL.Sem Idealize.ShloMosaic.ValueIdx

namespace Cert.Proof.Claims

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Fr.frame m ρ

theorem frame_ki : Cert.frame_KernelIdeal := fun m ρ _ => Cert.KernelIdeal.Fr.frame m ρ

/-- The reference has no launch: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing, so there is nothing to preserve. -/
theorem preserves : Cert.preserves_Kernel_KernelIdeal := trivial

/-- Both programs end with the same array: at index `(b₀, s, 64 h + d)` the attention formula for entry `b₀`. -/
theorem algebraic_of (hres : Cert.KernelIdeal.KArr.ResultAt) : Cert.algebraic_KernelIdeal_ReferenceIdeal := by
  intro m ρ m' ρ' _ hagree
  refine ⟨fun c => Cert.KernelIdeal.KArr.wholeResult m c, Cert.KernelIdeal.KArr.run m ρ hres, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  funext i
  obtain ⟨b0, s, j, rfl⟩ : ∃ (b0 : Fin 16) (s : Fin 512) (j : Fin 768), i = ix3 b0 s j := ⟨i 0, i 1, i 2, eq_ix3 i⟩
  obtain ⟨h, d, rfl⟩ : ∃ h d, j = Cert.Attn.col h d :=
    ⟨Cert.KernelIdeal.KArr.headOf j, Cert.KernelIdeal.KArr.laneOf j, (Cert.KernelIdeal.KArr.col_head_lane j).symm⟩
  refine (Cert.ReferenceIdeal.RefValue.ref_at _ _ _ _ _ _ _ _ b0 s h d).trans ?_
  unfold Cert.KernelIdeal.KArr.wholeResult
  show _ = Cert.Attn.attn Cert.Attn.scaleMul _ _ _ _ _ _ _ _ s
    (Cert.KernelIdeal.KArr.headOf (Cert.Attn.col h d)) (Cert.KernelIdeal.KArr.laneOf (Cert.Attn.col h d))
  rw [Cert.KernelIdeal.KArr.headOf_col, Cert.KernelIdeal.KArr.laneOf_col, Cert.Attn.scale_eq]

end Cert.Proof.Claims

end
-- ==== Proof.KernelValue.lean ====
/-
  The value the kernel's body stores, read at an index.

  The body computes, for each of the twelve heads, the same chain: cut the head's 512 × 64 block out of the three
  head-major projections, form the 512 × 512 table of dot products of query rows with key rows, rescale it, add the
  mask's row, subtract each row's maximum, exponentiate, divide by each row's sum, and multiply by the head's value
  block. The twelve 512 × 64 results are laid side by side. Here that chain is written once, as a function of the head
  (`headVal`); each unrolled copy in the body is shown to be it; and it is read at a row and a lane as the
  specification's `headOut`.
-/
import proofs.«181755_j32770600469142_2_alg».proof.Proof.FrameKernelIdeal
import proofs.«181755_j32770600469142_2_alg».proof.Proof.Spec
import Idealize.ShloMosaic.Lib.Pipeline.Value
import Idealize.ShloMosaic.Lib.ValueIdx
import Idealize.ShloMosaic.PureOps.Ideal.Laws

set_option maxRecDepth 65536

noncomputable section

namespace Cert.KernelIdeal.KValue

open Idealize.ShloMosaic Idealize.SL.Sem
open Cert.KernelIdeal Cert.KernelIdeal.Gen

/-! ## One head's chain, written once -/

section Generic
variable {F : FTy → Type} [FloatOps F]

/-- Head `h`'s block is inside the head-major array. -/
theorem slices_head : ∀ h : Fin 12, S12x512x64.Slices ![h.val, 0, 0] S1x512x64 := by decide

/-- Head `h`'s 512 × 64 block of a head-major array. -/
def sliceHead (h : Fin 12) (t : FVec F S12x512x64 .bf16) : FVec F S512x64 .bf16 :=
  shapeCast S512x64 (extractStridedSlice S1x512x64 ![h.val, 0, 0] t (slices_head h)) shapeCasts_S1x512x64_S512x64

/-- The table of rescaled dot products of query rows with key rows, plus the mask's row. -/
def scoresV (qh kh : FVec F S512x64 .bf16) (a : FVec F S1x512 .f32) : FVec F S512x512 .f32 :=
  addf
    (mulf
      (matmul dot_S512x64_S64x512_S512x512_1_0_0_1_n_n none qh
        (transpose S64x512 [1, 0] kh transposes_S512x64_p1_0_S64x512) (constant S512x512 .f32 0x00000000#32))
      (broadcast S512x512 (Scalar.ofBits .f32 0x3E000000#32)))
    (broadcastTo S512x512 a broadcasts_S1x512_S512x512)

/-- Each entry less its row's maximum, exponentiated. -/
def expoV (S : FVec F S512x512 .f32) : FVec F S512x512 .f32 :=
  exp (subf S
    (broadcastTo S512x512
      (shapeCast S512x1 (multiReduction .maximumf [1] S512 S 0xFF800000#32 reduces_S512x512_S512 (.inl rfl) rfl)
        shapeCasts_S512_S512x1)
      broadcasts_S512x1_S512x512))

/-- Each entry over its row's sum. -/
def weightV (E : FVec F S512x512 .f32) : FVec F S512x512 .bf16 :=
  truncf .bf16
    (divf E
      (broadcastTo S512x512
        (shapeCast S512x1 (multiReduction .add [1] S512 E 0x00000000#32 reduces_S512x512_S512 (.inl rfl) rfl)
          shapeCasts_S512_S512x1)
        broadcasts_S512x1_S512x512))
    bitsLt_bf16_f32

/-- The weights times the head's value block. -/
def outV (W : FVec F S512x512 .bf16) (vh : FVec F S512x64 .bf16) : FVec F S512x64 .f32 :=
  matmul dot_S512x512_S512x64_S512x64_1_0_0_1_n_n none W vh (constant S512x64 .f32 0x00000000#32)

/-- Head `h`'s 512 × 64 result from the three head-major projections and the mask's row. -/
def headVal (h : Fin 12) (q kk v : FVec F S12x512x64 .bf16) (a : FVec F S1x512 .f32) : FVec F S512x64 .f32 :=
  outV (weightV (expoV (scoresV (sliceHead h q) (sliceHead h kk) a))) (sliceHead h v)

/-! ## Each unrolled copy in the body is that chain -/

theorem head0_eq (x : Vec F S1x512x768 .f32) (w : Vec F S768x2304 .bf16) (b : Vec F S1x2304 .f32) (k : Vec F S1x1x512 .f32) :
    k0_pay10 (k0_pay7 x w b) (k0_pay8 x w b k) (k0_pay9 x w b k)
      = headVal 0 (k0_pay3 x w b) (k0_pay4 x w b) (k0_pay5 x w b) (k0_pay6 k) := rfl

theorem head1_eq (q kk v : FVec F S12x512x64 .bf16) (a : FVec F S1x512 .f32) :
    k0_pay11 q kk v a = headVal 1 q kk v a := rfl

theorem head2_eq (q kk v : FVec F S12x512x64 .bf16) (a : FVec F S1x512 .f32) :
    k0_pay14 (k0_pay12 v) (k0_pay13 q kk a) (constant S512x64 .f32 0x00000000#32) = headVal 2 q kk v a := rfl

theorem head3_eq (q kk v : FVec F S12x512x64 .bf16) (a : FVec F S1x512 .f32) :
    k0_pay15 q kk v a = headVal 3 q kk v a := rfl

theorem head4_eq (q kk v : FVec F S12x512x64 .bf16) (a : FVec F S1x512 .f32) :
    k0_pay16 q kk v a = headVal 4 q kk v a := rfl

theorem head5_eq (q kk v : FVec F S12x512x64 .bf16) (a : FVec F S1x512 .f32) :
    k0_pay19 v a (k0_pay17 q) (k0_pay18 kk) = headVal 5 q kk v a := rfl

theorem head6_eq (q kk v : FVec F S12x512x64 .bf16) (a : FVec F S1x512 .f32) :
    k0_pay20 q kk v a = headVal 6 q kk v a := rfl

theorem head7_eq (q kk v : FVec F S12x512x64 .bf16) (a : FVec F S1x512 .f32) :
    k0_pay24 a (k0_pay21 q) (k0_pay22 v) (k0_pay23 kk) = headVal 7 q kk v a := rfl

theorem head8_eq (q kk v : FVec F S12x512x64 .bf16) (a : FVec F S1x512 .f32) :
    k0_pay25 q kk v a = headVal 8 q kk v a := rfl

theorem head9_eq (q kk v : FVec F S12x512x64 .bf16) (a : FVec F S1x512 .f32) :
    k0_pay29 a (k0_pay26 v) (k0_pay27 q kk) (k0_pay28 (F := F)) = headVal 9 q kk v a := rfl

theorem head10_eq (q kk v : FVec F S12x512x64 .bf16) (a : FVec F S1x512 .f32) :
    k0_pay30 q kk v a = headVal 10 q kk v a := rfl

theorem head11_v_eq (v : FVec F S12x512x64 .bf16) : k0_pay31 v = sliceHead 11 v := rfl

theorem head11_s_eq (q kk : FVec F S12x512x64 .bf16) (a : FVec F S1x512 .f32) :
    k0_pay32 q kk a = scoresV (sliceHead 11 q) (sliceHead 11 kk) a := rfl

end Generic

/-! ## The chain read at an index, at the extended reals -/

section AtIdeal
open ValueIdx

/-- Head `h`'s block at row `s`, lane `d` is the head-major array at (`h`, `s`, `d`). -/
theorem sliceHead_at (h : Fin 12) (t : FVec Ideal S12x512x64 .bf16) (s : Fin 512) (d : Fin 64) :
    sliceHead h t (ix2 s d) = t (ix3 h s d) := by
  unfold sliceHead
  refine (shapeCast_apply _ _ (ix2 s d) (ix3 (0 : Fin 1) s d) ?_).trans ?_
  · rw [Shape.rowMajor_val_three, Shape.rowMajor_val_two]
    show (0 * 512 + s.val) * 64 + d.val = s.val * 64 + d.val
    omega
  · refine extractStridedSlice_apply _ _ _ (ix3 (0 : Fin 1) s d) (ix3 h s d) fun a => ?_
    match a with
    | ⟨0, _⟩ => show h.val = h.val + 0; omega
    | ⟨1, _⟩ => show s.val = 0 + s.val; omega
    | ⟨2, _⟩ => show d.val = 0 + d.val; omega

/-- The index over row `s` with column `j` put back. -/
theorem lift_row (s j : Fin 512) : reduces_S512x512_S512.lift (ix1 s) j = ix2 s j := by
  funext c
  match c with
  | ⟨0, _⟩ => exact Fin.ext rfl
  | ⟨1, _⟩ => exact Fin.ext rfl

/-- A row's reduced value, kept as a column and spread back over the row, read anywhere in row `s`. -/
theorem spread_at (r : FVec Ideal S512 .f32) (s j : Fin 512) :
    broadcastTo S512x512 (shapeCast S512x1 r shapeCasts_S512_S512x1) broadcasts_S512x1_S512x512 (ix2 s j) = r (ix1 s) := by
  refine (broadcastTo_apply _ _ (ix2 s j) (ix2 s (0 : Fin 1)) fun a => ?_).trans ?_
  · match a with
    | ⟨0, _⟩ => rfl
    | ⟨1, _⟩ => rfl
  · refine shapeCast_apply _ _ (ix2 s (0 : Fin 1)) (ix1 s) ?_
    rw [Shape.rowMajor_val_one, Shape.rowMajor_val_two]
    show s.val = s.val * 1 + 0
    omega

theorem qk_at_lhs0 (i : S512x512.Idx) (q : dot_S512x64_S64x512_S512x512_1_0_0_1_n_n.contr.Idx) : (dot_S512x64_S64x512_S512x512_1_0_0_1_n_n.lhsIdx i q 0).val = (i 0).val := by
  unfold DotDims.lhsIdx
  rw [dif_neg (show ¬(0 : Fin S512x64.rank) ∈ dot_S512x64_S64x512_S512x512_1_0_0_1_n_n.lhsBatch by decide),
    dif_pos (show (0 : Fin S512x64.rank) ∈ dot_S512x64_S64x512_S512x512_1_0_0_1_n_n.lhsNonContracting by decide)]
  rfl
theorem qk_at_rhs1 (i : S512x512.Idx) (q : dot_S512x64_S64x512_S512x512_1_0_0_1_n_n.contr.Idx) : (dot_S512x64_S64x512_S512x512_1_0_0_1_n_n.rhsIdx i q 1).val = (i 1).val := by
  unfold DotDims.rhsIdx
  rw [dif_neg (show ¬(1 : Fin S64x512.rank) ∈ dot_S512x64_S64x512_S512x512_1_0_0_1_n_n.rhsBatch by decide),
    dif_pos (show (1 : Fin S64x512.rank) ∈ dot_S512x64_S64x512_S512x512_1_0_0_1_n_n.rhsNonContracting by decide)]
  rfl

/-- The product of a 512 × 64 block with a 64 × 512 one at (`r`, `c`): the sum over the 64 lanes. -/
theorem qk_at (qh : FVec Ideal S512x64 .bf16) (kt : FVec Ideal S64x512 .bf16) (r : Fin 512) (c : Fin 512) :
    matmul dot_S512x64_S64x512_S512x512_1_0_0_1_n_n none qh kt (constant (F := Ideal) S512x512 .f32 0x00000000#32) (ix2 r c)
      = ∑ d : Fin 64, qh (ix2 r d) * kt (ix2 d c) := by
  refine (Ideal.matmul_constant_zero_apply _ none _ _ _).trans ?_
  rw [← Equiv.sum_comp (contrEquiv1 dot_S512x64_S64x512_S512x512_1_0_0_1_n_n 64 rfl rfl).symm]
  refine Finset.sum_congr rfl fun d _ => ?_
  have hk := contrEquiv1_symm_val dot_S512x64_S64x512_S512x512_1_0_0_1_n_n 64 rfl rfl d
  have el : dot_S512x64_S64x512_S512x512_1_0_0_1_n_n.lhsIdx (ix2 r c) ((contrEquiv1 dot_S512x64_S64x512_S512x512_1_0_0_1_n_n 64 rfl rfl).symm d) = ix2 r d := funext fun a => Fin.ext (by
    match a with
    | ⟨0, _⟩ => exact qk_at_lhs0 _ _
    | ⟨1, _⟩ => exact (dot_S512x64_S64x512_S512x512_1_0_0_1_n_n.lhsIdx_val_of_single rfl _ _).trans hk)
  have er : dot_S512x64_S64x512_S512x512_1_0_0_1_n_n.rhsIdx (ix2 r c) ((contrEquiv1 dot_S512x64_S64x512_S512x512_1_0_0_1_n_n 64 rfl rfl).symm d) = ix2 d c := funext fun a => Fin.ext (by
    match a with
    | ⟨0, _⟩ => exact (dot_S512x64_S64x512_S512x512_1_0_0_1_n_n.rhsIdx_val_of_single rfl _ _).trans hk
    | ⟨1, _⟩ => exact qk_at_rhs1 _ _)
  rw [el, er]

theorem wv_at_lhs0 (i : S512x64.Idx) (q : dot_S512x512_S512x64_S512x64_1_0_0_1_n_n.contr.Idx) : (dot_S512x512_S512x64_S512x64_1_0_0_1_n_n.lhsIdx i q 0).val = (i 0).val := by
  unfold DotDims.lhsIdx
  rw [dif_neg (show ¬(0 : Fin S512x512.rank) ∈ dot_S512x512_S512x64_S512x64_1_0_0_1_n_n.lhsBatch by decide),
    dif_pos (show (0 : Fin S512x512.rank) ∈ dot_S512x512_S512x64_S512x64_1_0_0_1_n_n.lhsNonContracting by decide)]
  rfl
theorem wv_at_rhs1 (i : S512x64.Idx) (q : dot_S512x512_S512x64_S512x64_1_0_0_1_n_n.contr.Idx) : (dot_S512x512_S512x64_S512x64_1_0_0_1_n_n.rhsIdx i q 1).val = (i 1).val := by
  unfold DotDims.rhsIdx
  rw [dif_neg (show ¬(1 : Fin S512x64.rank) ∈ dot_S512x512_S512x64_S512x64_1_0_0_1_n_n.rhsBatch by decide),
    dif_pos (show (1 : Fin S512x64.rank) ∈ dot_S512x512_S512x64_S512x64_1_0_0_1_n_n.rhsNonContracting by decide)]
  rfl

/-- The product of a 512 × 512 block with a 512 × 64 one at (`r`, `c`): the sum over the 512 columns. -/
theorem wv_at (W : FVec Ideal S512x512 .bf16) (vh : FVec Ideal S512x64 .bf16) (r : Fin 512) (c : Fin 64) :
    matmul dot_S512x512_S512x64_S512x64_1_0_0_1_n_n none W vh (constant (F := Ideal) S512x64 .f32 0x00000000#32) (ix2 r c)
      = ∑ j : Fin 512, W (ix2 r j) * vh (ix2 j c) := by
  refine (Ideal.matmul_constant_zero_apply _ none _ _ _).trans ?_
  rw [← Equiv.sum_comp (contrEquiv1 dot_S512x512_S512x64_S512x64_1_0_0_1_n_n 512 rfl rfl).symm]
  refine Finset.sum_congr rfl fun j _ => ?_
  have hk := contrEquiv1_symm_val dot_S512x512_S512x64_S512x64_1_0_0_1_n_n 512 rfl rfl j
  have el : dot_S512x512_S512x64_S512x64_1_0_0_1_n_n.lhsIdx (ix2 r c) ((contrEquiv1 dot_S512x512_S512x64_S512x64_1_0_0_1_n_n 512 rfl rfl).symm j) = ix2 r j := funext fun a => Fin.ext (by
    match a with
    | ⟨0, _⟩ => exact wv_at_lhs0 _ _
    | ⟨1, _⟩ => exact (dot_S512x512_S512x64_S512x64_1_0_0_1_n_n.lhsIdx_val_of_single rfl _ _).trans hk)
  have er : dot_S512x512_S512x64_S512x64_1_0_0_1_n_n.rhsIdx (ix2 r c) ((contrEquiv1 dot_S512x512_S512x64_S512x64_1_0_0_1_n_n 512 rfl rfl).symm j) = ix2 j c := funext fun a => Fin.ext (by
    match a with
    | ⟨0, _⟩ => exact (dot_S512x512_S512x64_S512x64_1_0_0_1_n_n.rhsIdx_val_of_single rfl _ _).trans hk
    | ⟨1, _⟩ => exact wv_at_rhs1 _ _)
  rw [el, er]

/-- The score table at (`s`, `j`). -/
theorem scoresV_at (qh kh : FVec Ideal S512x64 .bf16) (a : FVec Ideal S1x512 .f32) (s j : Fin 512) :
    scoresV qh kh a (ix2 s j)
      = Cert.Attn.scores Cert.Attn.scaleMul (fun s d => qh (ix2 s d)) (fun j d => kh (ix2 j d)) (fun j => a (ix2 0 j)) s j := by
  unfold scoresV Cert.Attn.scores Cert.Attn.scaleMul
  rw [addf_apply, mulf_apply, broadcast_apply, qk_at]
  have hb : broadcastTo S512x512 a broadcasts_S1x512_S512x512 (ix2 s j) = a (ix2 (0 : Fin 1) j) :=
    broadcastTo_apply _ _ (ix2 s j) (ix2 (0 : Fin 1) j) fun c => by
      match c with
      | ⟨0, _⟩ => rfl
      | ⟨1, _⟩ => rfl
  rw [hb]
  have ht : ∀ d : Fin 64, transpose S64x512 [1, 0] kh transposes_S512x64_p1_0_S64x512 (ix2 d j) = kh (ix2 j d) := fun d =>
    transpose_apply _ _ _ (ix2 d j) (ix2 j d) fun c => by
      match c with
      | ⟨0, _⟩ => rfl
      | ⟨1, _⟩ => rfl
  simp only [ht]
  rfl

/-- A row's maximum, as the reduction computes it from −∞. -/
theorem rowMax_at (S : FVec Ideal S512x512 .f32) (s : Fin 512) :
    multiReduction (F := Ideal) .maximumf [1] S512 S 0xFF800000#32 reduces_S512x512_S512 (.inl rfl) rfl (ix1 s)
      = Cert.Attn.rowMax (fun s j => S (ix2 s j)) s := by
  unfold Cert.Attn.rowMax
  refine (Ideal.multiReduction_maximumf_single S _ reduces_S512x512_S512 _ _ (ix1 s)).trans ?_
  rw [Ideal.ofBits_def, Cert.Attn.ofBits_neg_inf]
  exact congrArg (fun f => (Finset.univ : Finset (Fin 512)).fold max ⊥ f) (funext fun j' => congrArg S (lift_row s j'))

/-- A row's sum, as the reduction computes it. -/
theorem rowSum_at (E : FVec Ideal S512x512 .f32) (s : Fin 512) :
    multiReduction (F := Ideal) .add [1] S512 E 0x00000000#32 reduces_S512x512_S512 (.inl rfl) rfl (ix1 s)
      = ∑ j' : Fin 512, E (ix2 s j') := by
  refine (Ideal.multiReduction_add_single E _ reduces_S512x512_S512 _ _ (ix1 s)).trans ?_
  exact Finset.sum_congr rfl fun j' _ => congrArg E (lift_row s j')

/-- The exponentials at (`s`, `j`). -/
theorem expoV_at (S : FVec Ideal S512x512 .f32) (s j : Fin 512) :
    expoV S (ix2 s j) = Cert.Attn.expo (fun s j => S (ix2 s j)) s j := by
  unfold expoV Cert.Attn.expo
  show Ideal.exp (subf S _ (ix2 s j)) = _
  rw [subf_apply, spread_at]
  exact congrArg (fun m => Ideal.exp (S (ix2 s j) - m)) (rowMax_at S s)

/-- The weights at (`s`, `j`), from a table of exponentials. -/
theorem weightV_at (E : FVec Ideal S512x512 .f32) (s j : Fin 512) :
    weightV E (ix2 s j) = Ideal.div (E (ix2 s j)) (∑ j' : Fin 512, E (ix2 s j')) := by
  unfold weightV
  rw [truncf_apply, divf_apply, spread_at]
  exact congrArg (Ideal.div (E (ix2 s j))) (rowSum_at E s)

/-- Head `h`'s result at row `s`, lane `d`: the specification's head output, from the head's three blocks. -/
theorem headVal_at (h : Fin 12) (q kk v : FVec Ideal S12x512x64 .bf16) (a : FVec Ideal S1x512 .f32) (s : Fin 512) (d : Fin 64) :
    headVal h q kk v a (ix2 s d)
      = Cert.Attn.headOut
          (Cert.Attn.scores Cert.Attn.scaleMul (fun s d => q (ix3 h s d)) (fun j d => kk (ix3 h j d)) (fun j => a (ix2 0 j)))
          (fun j d => v (ix3 h j d)) s d := by
  have hS : (fun s j => scoresV (sliceHead h q) (sliceHead h kk) a (ix2 s j))
      = Cert.Attn.scores Cert.Attn.scaleMul (fun s d => q (ix3 h s d)) (fun j d => kk (ix3 h j d)) (fun j => a (ix2 0 j)) := by
    funext s j
    rw [scoresV_at]
    simp only [sliceHead_at]
  unfold headVal outV Cert.Attn.headOut Cert.Attn.weight
  rw [wv_at]
  refine Finset.sum_congr rfl fun j _ => ?_
  rw [sliceHead_at, weightV_at]
  simp only [expoV_at, hS]

end AtIdeal

/-! ## The twelve results side by side -/

section Laid
open ValueIdx

/-- Twelve 512 × 64 pieces laid side by side, read at row `s`, column `64 h + d`: piece `h` at lane `d`. -/
theorem cat_at {α : Type} (f : Fin 12 → (S512x64.Idx → α)) (s : Fin 512) (h : Fin 12) (d : Fin 64) :
    concatenate S512x768 1 [⟨S512x64, f 0⟩, ⟨S512x64, f 1⟩, ⟨S512x64, f 2⟩, ⟨S512x64, f 3⟩, ⟨S512x64, f 4⟩, ⟨S512x64, f 5⟩, ⟨S512x64, f 6⟩, ⟨S512x64, f 7⟩, ⟨S512x64, f 8⟩, ⟨S512x64, f 9⟩, ⟨S512x64, f 10⟩, ⟨S512x64, f 11⟩]
        concatenates_S512x64_S512x64_S512x64_S512x64_S512x64_S512x64_S512x64_S512x64_S512x64_S512x64_S512x64_S512x64_S512x768_d1 (ix2 s (Cert.Attn.col h d))
      = f h (ix2 s d) := by
  refine concatenate_ofFn_apply (t := S512x768) (s₁ := S512x64) (1 : Fin S512x768.rank) f _ rfl 64 rfl
    (ix2 s (Cert.Attn.col h d)) h ?_ (ix2 s d) ?_ ?_
  · show (h.val * 64 + d.val) / 64 = h.val
    omega
  · show d.val = (h.val * 64 + d.val) % 64
    omega
  · intro b hb
    match b, hb with
    | ⟨0, _⟩, _ => rfl
    | ⟨1, _⟩, hb => exact absurd rfl hb

variable {F : FTy → Type} [FloatOps F]

/-- The body's stored value: the twelve heads' results side by side, with a unit leading axis. -/
theorem result_eq (x : Vec F S1x512x768 .f32) (w : Vec F S768x2304 .bf16) (b : Vec F S1x2304 .f32) (k : Vec F S1x1x512 .f32) :
    Fr.result x w b k
      = shapeCast S1x512x768
          (concatenate S512x768 1
            [⟨S512x64, headVal 0 (k0_pay3 x w b) (k0_pay4 x w b) (k0_pay5 x w b) (k0_pay6 k)⟩, ⟨S512x64, headVal 1 (k0_pay3 x w b) (k0_pay4 x w b) (k0_pay5 x w b) (k0_pay6 k)⟩, ⟨S512x64, headVal 2 (k0_pay3 x w b) (k0_pay4 x w b) (k0_pay5 x w b) (k0_pay6 k)⟩, ⟨S512x64, headVal 3 (k0_pay3 x w b) (k0_pay4 x w b) (k0_pay5 x w b) (k0_pay6 k)⟩, ⟨S512x64, headVal 4 (k0_pay3 x w b) (k0_pay4 x w b) (k0_pay5 x w b) (k0_pay6 k)⟩, ⟨S512x64, headVal 5 (k0_pay3 x w b) (k0_pay4 x w b) (k0_pay5 x w b) (k0_pay6 k)⟩, ⟨S512x64, headVal 6 (k0_pay3 x w b) (k0_pay4 x w b) (k0_pay5 x w b) (k0_pay6 k)⟩, ⟨S512x64, headVal 7 (k0_pay3 x w b) (k0_pay4 x w b) (k0_pay5 x w b) (k0_pay6 k)⟩, ⟨S512x64, headVal 8 (k0_pay3 x w b) (k0_pay4 x w b) (k0_pay5 x w b) (k0_pay6 k)⟩, ⟨S512x64, headVal 9 (k0_pay3 x w b) (k0_pay4 x w b) (k0_pay5 x w b) (k0_pay6 k)⟩, ⟨S512x64, headVal 10 (k0_pay3 x w b) (k0_pay4 x w b) (k0_pay5 x w b) (k0_pay6 k)⟩, ⟨S512x64, headVal 11 (k0_pay3 x w b) (k0_pay4 x w b) (k0_pay5 x w b) (k0_pay6 k)⟩]
            concatenates_S512x64_S512x64_S512x64_S512x64_S512x64_S512x64_S512x64_S512x64_S512x64_S512x64_S512x64_S512x64_S512x768_d1)
          shapeCasts_S512x768_S1x512x768 := rfl

/-- The stored value at row `s`, head `h`, lane `d`, given the three projections and the mask's row at an index. -/
theorem result_at_of
    (hq : ∀ (x : Vec Ideal S1x512x768 .f32) (w : Vec Ideal S768x2304 .bf16) (b : Vec Ideal S1x2304 .f32)
        (h : Fin 12) (s : Fin 512) (d : Fin 64),
      k0_pay3 (F := Ideal) x w b (ix3 h s d)
        = Cert.Attn.proj (fun s e => x (ix3 0 s e)) (fun e j => w (ix2 e ⟨j.val, by omega⟩))
            (fun j => b (ix2 0 ⟨j.val, by omega⟩)) s (Cert.Attn.col h d))
    (hk : ∀ (x : Vec Ideal S1x512x768 .f32) (w : Vec Ideal S768x2304 .bf16) (b : Vec Ideal S1x2304 .f32)
        (h : Fin 12) (s : Fin 512) (d : Fin 64),
      k0_pay4 (F := Ideal) x w b (ix3 h s d)
        = Cert.Attn.proj (fun s e => x (ix3 0 s e)) (fun e j => w (ix2 e ⟨768 + j.val, by omega⟩))
            (fun j => b (ix2 0 ⟨768 + j.val, by omega⟩)) s (Cert.Attn.col h d))
    (hv : ∀ (x : Vec Ideal S1x512x768 .f32) (w : Vec Ideal S768x2304 .bf16) (b : Vec Ideal S1x2304 .f32)
        (h : Fin 12) (s : Fin 512) (d : Fin 64),
      k0_pay5 (F := Ideal) x w b (ix3 h s d)
        = Cert.Attn.proj (fun s e => x (ix3 0 s e)) (fun e j => w (ix2 e ⟨1536 + j.val, by omega⟩))
            (fun j => b (ix2 0 ⟨1536 + j.val, by omega⟩)) s (Cert.Attn.col h d))
    (hm : ∀ (k : Vec Ideal S1x1x512 .f32) (j : Fin 512),
      k0_pay6 (F := Ideal) k (ix2 0 j) = k (ix3 0 0 j) * Cert.Attn.negBig)
    (x : Vec Ideal S1x512x768 .f32) (w : Vec Ideal S768x2304 .bf16) (b : Vec Ideal S1x2304 .f32) (k : Vec Ideal S1x1x512 .f32)
    (s : Fin 512) (h : Fin 12) (d : Fin 64) :
    Fr.result (F := Ideal) x w b k (ix3 (0 : Fin 1) s (Cert.Attn.col h d))
      = Cert.Attn.attn Cert.Attn.scaleMul (fun s e => x (ix3 0 s e)) (fun j => k (ix3 0 0 j))
          (fun e j => w (ix2 e ⟨j.val, by omega⟩)) (fun j => b (ix2 0 ⟨j.val, by omega⟩))
          (fun e j => w (ix2 e ⟨768 + j.val, by omega⟩)) (fun j => b (ix2 0 ⟨768 + j.val, by omega⟩))
          (fun e j => w (ix2 e ⟨1536 + j.val, by omega⟩)) (fun j => b (ix2 0 ⟨1536 + j.val, by omega⟩)) s h d := by
  rw [result_eq]
  refine (shapeCast_apply _ _ (ix3 (0 : Fin 1) s (Cert.Attn.col h d)) (ix2 s (Cert.Attn.col h d)) ?_).trans ?_
  · rw [Shape.rowMajor_val_two, Shape.rowMajor_val_three]
    show s.val * 768 + (Cert.Attn.col h d).val = (0 * 512 + s.val) * 768 + (Cert.Attn.col h d).val
    omega
  refine (cat_at (fun n => headVal n (k0_pay3 x w b) (k0_pay4 x w b) (k0_pay5 x w b) (k0_pay6 k)) s h d).trans ?_
  rw [headVal_at]
  unfold Cert.Attn.attn
  simp only [hq, hk, hv, hm]

end Laid

end Cert.KernelIdeal.KValue

end
-- ==== Proof.KernelProj.lean ====
/-
  The fused program's first stage read as formulas.  It multiplies the batch entry's 512 × 768 rows by the three weight
  matrices laid side by side (768 × 2304) and adds the three bias rows laid end to end, so column `c` of the joined
  product is column `c`, `c − 768` or `c − 1536` of the first, second or third linear map.  Each third of the columns is then
  cut out, its 768 columns regrouped as 12 heads of 64 lanes, and the head axis moved to the front: entry (h, s, d) is
  column 64 h + d of row s of that linear map.  The mask row is multiplied by the word of −10⁹.
-/
import proofs.«181755_j32770600469142_2_alg».proof.Proof.Gen.KernelIdeal.Skeleton
import proofs.«181755_j32770600469142_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KProj

open Cert.KernelIdeal Cert.KernelIdeal.Gen Idealize.ShloMosaic Idealize.ShloMosaic.ValueIdx

/-! ## The joined product -/

/-- The 512 × 768 by 768 × 2304 product into a zero accumulator, at (s, c): the sum over the 768 shared coordinates. -/
theorem matmul_at (l : FVec Ideal S512x768 .bf16) (r : FVec Ideal S768x2304 .bf16) (s : Fin 512) (c : Fin 2304) :
    matmul dot_S512x768_S768x2304_S512x2304_1_0_0_1_n_n none l r (constant (F := Ideal) S512x2304 .f32 0x00000000#32) (ix2 s c)
      = ∑ e : Fin 768, l (ix2 s e) * r (ix2 e c) := by
  refine (Ideal.matmul_constant_zero_apply dot_S512x768_S768x2304_S512x2304_1_0_0_1_n_n none l r (ix2 s c)).trans ?_
  rw [← Equiv.sum_comp (contrEquiv1 dot_S512x768_S768x2304_S512x2304_1_0_0_1_n_n 768 rfl rfl).symm]
  refine Finset.sum_congr rfl fun k _ => ?_
  have hk := contrEquiv1_symm_val dot_S512x768_S768x2304_S512x2304_1_0_0_1_n_n 768 rfl rfl k
  have l0 : ∀ q, (dot_S512x768_S768x2304_S512x2304_1_0_0_1_n_n.lhsIdx (ix2 s c) q 0).val = s.val := by
    intro q
    unfold DotDims.lhsIdx
    rw [dif_neg (show ¬(0 : Fin S512x768.rank) ∈ dot_S512x768_S768x2304_S512x2304_1_0_0_1_n_n.lhsBatch by decide),
      dif_pos (show (0 : Fin S512x768.rank) ∈ dot_S512x768_S768x2304_S512x2304_1_0_0_1_n_n.lhsNonContracting by decide)]
    rfl
  have r1 : ∀ q, (dot_S512x768_S768x2304_S512x2304_1_0_0_1_n_n.rhsIdx (ix2 s c) q 1).val = c.val := by
    intro q
    unfold DotDims.rhsIdx
    rw [dif_neg (show ¬(1 : Fin S768x2304.rank) ∈ dot_S512x768_S768x2304_S512x2304_1_0_0_1_n_n.rhsBatch by decide),
      dif_pos (show (1 : Fin S768x2304.rank) ∈ dot_S512x768_S768x2304_S512x2304_1_0_0_1_n_n.rhsNonContracting by decide)]
    rfl
  have el : dot_S512x768_S768x2304_S512x2304_1_0_0_1_n_n.lhsIdx (ix2 s c)
      ((contrEquiv1 dot_S512x768_S768x2304_S512x2304_1_0_0_1_n_n 768 rfl rfl).symm k) = ix2 s k := funext fun a => Fin.ext (by
    match a with
    | ⟨0, _⟩ => exact l0 _
    | ⟨1, _⟩ => exact (dot_S512x768_S768x2304_S512x2304_1_0_0_1_n_n.lhsIdx_val_of_single rfl _ _).trans hk)
  have er : dot_S512x768_S768x2304_S512x2304_1_0_0_1_n_n.rhsIdx (ix2 s c)
      ((contrEquiv1 dot_S512x768_S768x2304_S512x2304_1_0_0_1_n_n 768 rfl rfl).symm k) = ix2 k c := funext fun a => Fin.ext (by
    match a with
    | ⟨0, _⟩ => exact (dot_S512x768_S768x2304_S512x2304_1_0_0_1_n_n.rhsIdx_val_of_single rfl _ _).trans hk
    | ⟨1, _⟩ => exact r1 _)
  rw [el, er]

/-- The joined projection at (s, c): row `s` against column `c` of the joined weights, plus entry `c` of the joined bias. -/
theorem joined_at (x : Vec Ideal S1x512x768 .f32) (w : Vec Ideal S768x2304 .bf16) (b : Vec Ideal S1x2304 .f32)
    (s : Fin 512) (c : Fin 2304) :
    k0_pay2 (F := Ideal) x w b (ix2 s c)
      = (∑ e : Fin 768, x (ix3 (0 : Fin 1) s e) * w (ix2 e c)) + b (ix2 (0 : Fin 1) c) := by
  unfold k0_pay2
  refine (truncf_apply (φ := .f32) (ψ := .bf16) _ bitsLt_bf16_f32 (ix2 s c)).trans ?_
  refine (addf_apply (φ := .f32) _ _ (ix2 s c)).trans ?_
  refine congrArg₂ (· + ·) ((matmul_at _ _ s c).trans (Finset.sum_congr rfl fun e _ => congrArg₂ (· * ·) ?_ ?_)) ?_
  · exact (truncf_apply (φ := .f32) (ψ := .bf16) _ bitsLt_bf16_f32 (ix2 s e)).trans (shapeCast_1ab_ab_apply x _ s e)
  · exact congrFun (shapeCast_self w _) _
  · exact (broadcastTo_1b_ab_apply _ _ s c).trans (congrFun (shapeCast_self b _) _)

/-! ## One third of the columns, regrouped by heads -/

/-- Columns `o … o + 767` of the joined projection, regrouped as 12 heads of 64 lanes with the head axis first: entry
    (h, s, d) is the joined projection at row `s`, column `o + 64 h + d`. -/
theorem third_at (x : Vec Ideal S1x512x768 .f32) (w : Vec Ideal S768x2304 .bf16) (b : Vec Ideal S1x2304 .f32)
    (o : Nat) (hs : S512x2304.Slices ![0, o] S512x768) (h : Fin 12) (s : Fin 512) (d : Fin 64) (c : Fin 2304)
    (hc : c.val = o + (Cert.Attn.col h d).val) :
    transpose S12x512x64 [1, 0, 2]
        (shapeCast S512x12x64 (extractStridedSlice S512x768 ![0, o] (k0_pay2 (F := Ideal) x w b) hs) shapeCasts_S512x768_S512x12x64)
        transposes_S512x12x64_p1_0_2_S12x512x64 (ix3 h s d)
      = (∑ e : Fin 768, x (ix3 (0 : Fin 1) s e) * w (ix2 e c)) + b (ix2 (0 : Fin 1) c) := by
  refine (transpose_apply [1, 0, 2] _ transposes_S512x12x64_p1_0_2_S12x512x64 (ix3 h s d) (ix3 s h d)
    (fun a => match a with | ⟨0, _⟩ => rfl | ⟨1, _⟩ => rfl | ⟨2, _⟩ => rfl)).trans ?_
  refine (shapeCast_apply _ shapeCasts_S512x768_S512x12x64 (ix3 s h d) (ix2 s (Cert.Attn.col h d)) (by
    rw [Shape.rowMajor_val_two, Shape.rowMajor_val_three]
    show s.val * 768 + (h.val * 64 + d.val) = (s.val * 12 + h.val) * 64 + d.val
    omega)).trans ?_
  refine (slice2_axis1_apply o _ hs s (Cert.Attn.col h d) c hc).trans ?_
  exact joined_at x w b s c

/-! ## The three projections and the mask row -/

/-- The first third: the query projection. -/
theorem q_at (x : Vec Ideal S1x512x768 .f32) (w : Vec Ideal S768x2304 .bf16) (b : Vec Ideal S1x2304 .f32)
    (h : Fin 12) (s : Fin 512) (d : Fin 64) :
    Cert.KernelIdeal.Gen.k0_pay3 (F := Ideal) x w b (ValueIdx.ix3 h s d)
      = Cert.Attn.proj (fun s e => x (ValueIdx.ix3 0 s e)) (fun e j => w (ValueIdx.ix2 e ⟨j.val, by omega⟩))
          (fun j => b (ValueIdx.ix2 0 ⟨j.val, by omega⟩)) s (Cert.Attn.col h d) := by
  unfold k0_pay3 Cert.Attn.proj
  exact third_at x w b 0 slices_S512x2304_o0_0_S512x768 h s d ⟨(Cert.Attn.col h d).val, by omega⟩ (Nat.zero_add _).symm

/-- The second third: the key projection. -/
theorem k_at (x : Vec Ideal S1x512x768 .f32) (w : Vec Ideal S768x2304 .bf16) (b : Vec Ideal S1x2304 .f32)
    (h : Fin 12) (s : Fin 512) (d : Fin 64) :
    Cert.KernelIdeal.Gen.k0_pay4 (F := Ideal) x w b (ValueIdx.ix3 h s d)
      = Cert.Attn.proj (fun s e => x (ValueIdx.ix3 0 s e)) (fun e j => w (ValueIdx.ix2 e ⟨768 + j.val, by omega⟩))
          (fun j => b (ValueIdx.ix2 0 ⟨768 + j.val, by omega⟩)) s (Cert.Attn.col h d) := by
  unfold k0_pay4 Cert.Attn.proj
  exact third_at x w b 768 slices_S512x2304_o0_768_S512x768 h s d ⟨768 + (Cert.Attn.col h d).val, by omega⟩ rfl

/-- The last third: the value projection. -/
theorem v_at (x : Vec Ideal S1x512x768 .f32) (w : Vec Ideal S768x2304 .bf16) (b : Vec Ideal S1x2304 .f32)
    (h : Fin 12) (s : Fin 512) (d : Fin 64) :
    Cert.KernelIdeal.Gen.k0_pay5 (F := Ideal) x w b (ValueIdx.ix3 h s d)
      = Cert.Attn.proj (fun s e => x (ValueIdx.ix3 0 s e)) (fun e j => w (ValueIdx.ix2 e ⟨1536 + j.val, by omega⟩))
          (fun j => b (ValueIdx.ix2 0 ⟨1536 + j.val, by omega⟩)) s (Cert.Attn.col h d) := by
  unfold k0_pay5 Cert.Attn.proj
  exact third_at x w b 1536 slices_S512x2304_o0_1536_S512x768 h s d ⟨1536 + (Cert.Attn.col h d).val, by omega⟩ rfl

/-- The mask row times the word of −10⁹. -/
theorem mask_at (k : Vec Ideal S1x1x512 .f32) (j : Fin 512) :
    Cert.KernelIdeal.Gen.k0_pay6 (F := Ideal) k (ValueIdx.ix2 (0 : Fin 1) j) = k (ValueIdx.ix3 0 0 j) * Cert.Attn.negBig := by
  unfold k0_pay6
  refine (mulf_apply (φ := .f32) _ _ (ix2 (0 : Fin 1) j)).trans ?_
  exact congrArg₂ (· * ·) (shapeCast_1ab_ab_apply k _ (0 : Fin 1) j) rfl

end Cert.KernelIdeal.KProj

end
-- ==== Proof.lean ====
/-
  Fused multi-head self-attention (16 batch entries, 512 rows, 12 heads of width 64) against its plain reference:
  the three frames, the (empty) idealization ledger, and equality of the two results on the extended reals.

  Per batch entry both programs compute, for row s, head h and lane d,
      ∑ⱼ softmaxⱼ( (q_s · k_j) · c + mask_j · (−10⁹) ) · v_{j,d}
  over the three projections q, k, v of the entry's rows. The kernel multiplies the dot product by the f32 word for
  1/8, the reference divides it by √64; on the extended reals these are one function, and nothing else differs
  beyond the order in which the same sums and the same layout changes are written. No finiteness of the inputs is
  used.
-/
import proofs.«181755_j32770600469142_2_alg».proof.Defs
import proofs.«181755_j32770600469142_2_alg».proof.Proof.Assembly
import proofs.«181755_j32770600469142_2_alg».proof.Proof.KernelValue
import proofs.«181755_j32770600469142_2_alg».proof.Proof.KernelProj

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Claims.frame_ri, Cert.Proof.Claims.preserves,
    Cert.Proof.Claims.algebraic_of (Cert.KernelIdeal.KValue.result_at_of Cert.KernelIdeal.KProj.q_at Cert.KernelIdeal.KProj.k_at
      Cert.KernelIdeal.KProj.v_at Cert.KernelIdeal.KProj.mask_at)⟩

end Cert.Proof

end
